-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64 .f32) (main_arg6 : FVec F S64x1 .f32) (main_arg7 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg6
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x1 .f32) (main_arg7 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S10000x128 : Shape := ⟨2, ![10000, 128]⟩
abbrev S10000x64 : Shape := ⟨2, ![10000, 64]⟩
abbrev S3300000x64 : Shape := ⟨2, ![3300000, 64]⟩
abbrev S1x64 : Shape := ⟨2, ![1, 64]⟩
abbrev S1x1 : Shape := ⟨2, ![1, 1]⟩
abbrev S100000x1 : Shape := ⟨2, ![100000, 1]⟩
abbrev S10000x1 : Shape := ⟨2, ![10000, 1]⟩

abbrev nBuf : Space → Nat
  | .hbm => 91
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x64, .f32⟩
  | .hbm, ⟨80, _⟩ => ⟨S3300000x1, .f32⟩
  | .hbm, ⟨81, _⟩ => ⟨S3300000x64, .f32⟩
  | .hbm, ⟨82, _⟩ => ⟨S3300000x64, .f32⟩
  | .hbm, ⟨83, _⟩ => ⟨S_, .f32⟩
  | .hbm, ⟨84, _⟩ => ⟨S100000x64, .f32⟩
  | .hbm, ⟨85, _⟩ => ⟨S3300000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S1x1, .f32⟩
  | .hbm, ⟨90, _⟩ => ⟨S100000x1, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x1, .f32⟩
  | .local _ .vmem, ⟨23, _⟩ => ⟨S1x1, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_c_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x128_S128x64_S10000x64_1_0_0_1_n_n_wf : DotDims.WF S10000x128 S128x64 S10000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S10000x64_S64x64_S10000x64_1_0_0_1_n_n_wf : DotDims.WF S10000x64 S64x64 S10000x64 [1] [0] [0] [1] [] []
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x1.size a ≤ S64x1.size a
  hwx4_1 : ∀ i : grid4.Coords, EltTy.bits .f32 = 32 ∨ (Rect.block (s := S64x1) S64x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S10000x1.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S100000x64, .f32⟩
  | .hbm, ⟨52, _⟩ => ⟨S_, .i32⟩
  | .hbm, ⟨53, _⟩ => ⟨S3300000, .i32⟩
  | .hbm, ⟨54, _⟩ => ⟨S3300000, .i1⟩
  | .hbm, ⟨55, _⟩ => ⟨S_, .i32⟩
  | .hbm, ⟨56, _⟩ => ⟨S3300000, .i32⟩
  | .hbm, ⟨57, _⟩ => ⟨S3300000, .i32⟩
  | .hbm, ⟨58, _⟩ => ⟨S3300000, .i32⟩
  | .hbm, ⟨59, _⟩ => ⟨S3300000x1, .i32⟩
  | .hbm, ⟨60, _⟩ => ⟨S3300000x64, .f32⟩
  | .hbm, ⟨61, _⟩ => ⟨S3300000x1, .f32⟩
  | .hbm, ⟨62, _⟩ => ⟨S3300000x64, .f32⟩
  | .hbm, ⟨63, _⟩ => ⟨S3300000x64, .f32⟩
  | .hbm, ⟨64, _⟩ => ⟨S_, .f32⟩
  | .hbm, ⟨65, _⟩ => ⟨S100000x64, .f32⟩
  | .hbm, ⟨66, _⟩ => ⟨S3300000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x64, .f32⟩
  | .hbm, ⟨84, _⟩ => ⟨S3300000x1, .f32⟩
  | .hbm, ⟨85, _⟩ => ⟨S3300000x64, .f32⟩
  | .hbm, ⟨86, _⟩ => ⟨S3300000x64, .f32⟩
  | .hbm, ⟨87, _⟩ => ⟨S_, .f32⟩
  | .hbm, ⟨88, _⟩ => ⟨S100000x64, .f32⟩
  | .hbm, ⟨89, _⟩ => ⟨S3300000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The run of the kernel program with its result named. Every weakly fair execution of the program terminates without
  a fault, and in the final state the result array holds what the fold of the program's segments leaves there: the
  five dense stages (each a launch over ten row blocks) alternate with stretches of host operations, and the contents
  of every buffer after the last segment are the eleventh value of that fold, `W11`. The argument arrays end as
  launched. The statement is the frame statement with one more conjunct, the result array read out of the last
  thread state beside the arguments.
-/
import proofs.«152510_j77275051590185_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program runs to the end, the result array at the last boundary's contents and the arguments as launched. -/
theorem run_named : θ_run defs (onTc (τ := τ) (main (F := F))) ⟨m, fun _ => 0, ρ⟩ (fun r => ∀ c : Dev nD,
      r.2.mem ((c.tc : Thread nD τ).loc main_v65) = W11 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v65 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.KernelIdeal.Named

end
-- ==== Proof.Graph.lean ====
/-
  The graph side of the convolution, which both programs compute with the same host operations, named once.
  From the 2 × 3200000 edge list: the source and the target of every edge, each row of the list followed by every node
  once (one self loop per node), 3300000 entries; a node's degree, the number of entries of the target array that
  name it (a scatter-add of ones); its inverse square root where the degree is positive and zero elsewhere; one
  coefficient per edge, the product of that quantity at the edge's two endpoints. An index array is wrapped before a
  gather reads through it: a negative entry counts from the end (100000 is added to it). Aggregation takes a
  node-by-feature array, gathers the row of every edge's source, scales it by the edge's coefficient and adds it into
  the row of the edge's target, starting from zeros. Nothing here is ever opened by the certificate: the two programs
  apply these same functions, and it is enough that they apply them to equal arrays.
-/
import proofs.«152510_j77275051590185_1_alg».proof.Proof.Gen.ReferenceIdeal

noncomputable section

namespace Cert.Graph

open Cert.ReferenceIdeal Cert.ReferenceIdeal.Facts₀ Idealize.ShloMosaic

variable {F : FTy → Type} [FloatOps F]

/-- The edge list: row 0 the sources, row 1 the targets. -/
abbrev EdgeList (F : FTy → Type) [FloatOps F] := (⟨S2x3200000, .i32⟩ : BufTy).Contents (Elt F)
/-- One node index per edge, self loops included. -/
abbrev Ends (F : FTy → Type) [FloatOps F] := (⟨S3300000, .i32⟩ : BufTy).Contents (Elt F)
/-- One number per edge. -/
abbrev PerEdge (F : FTy → Type) [FloatOps F] := (⟨S3300000, .f32⟩ : BufTy).Contents (Elt F)
/-- One number per node. -/
abbrev PerNode (F : FTy → Type) [FloatOps F] := (⟨S100000, .f32⟩ : BufTy).Contents (Elt F)
/-- A node-by-feature array. -/
abbrev Feat (F : FTy → Type) [FloatOps F] := (⟨S100000x64, .f32⟩ : BufTy).Contents (Elt F)

/-- Every edge's source: row 0 of the edge list, then the nodes 0 … 99999. -/
def sources (e : EdgeList F) : Ends F :=
  concatenate S3300000 0 [⟨S3200000, shapeCast S3200000 (extractStridedSlice S1x3200000 ![0, 0] e slices_S2x3200000_S1x3200000_0_0) shapeCasts_S1x3200000_S3200000⟩, ⟨S100000, iotaInDim S100000 32 0⟩] concatenates_S3200000_S100000_S3300000_d0

/-- Every edge's target: row 1 of the edge list, then the nodes 0 … 99999. -/
def targets (e : EdgeList F) : Ends F :=
  concatenate S3300000 0 [⟨S3200000, shapeCast S3200000 (extractStridedSlice S1x3200000 ![1, 0] e slices_S2x3200000_S1x3200000_1_0) shapeCasts_S1x3200000_S3200000⟩, ⟨S100000, iotaInDim S100000 32 0⟩] concatenates_S3200000_S100000_S3300000_d0

/-- An index array made ready for a gather: a negative entry counts from the end. -/
def wrapIdx (v : Ends F) : (⟨S3300000x1, .i32⟩ : BufTy).Contents (Elt F) :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)

/-- A node's degree: how many entries of the target array name it. -/
def degree (d : Ends F) : PerNode F :=
  Host.scatterAdd (F := F) scatter_S100000_S3300000x1_S3300000_n_0_0_1
    (broadcastInDim S100000 ![] bcast_S_S100000 (constant (F := F) S_ .f32 0x00000000#32))
    (broadcastInDim S3300000x1 ![0] bcast_S3300000_S3300000x1_0 d)
    (broadcastInDim S3300000 ![] bcast_S_S3300000 (constant (F := F) S_ .f32 0x3F800000#32))

/-- Is the degree positive. -/
def hasEdges (d : Ends F) : (⟨S100000, .i1⟩ : BufTy).Contents (Elt F) :=
  cmpf (F := F) .ogt (degree d) (broadcastInDim S100000 ![] bcast_S_S100000 (constant (F := F) S_ .f32 0x00000000#32))

/-- The inverse square root of the degree, the degree raised to at least one first. -/
def rsqrtDegree (d : Ends F) : PerNode F :=
  Host.rsqrt (F := F) (maximumf (degree d) (broadcastInDim S100000 ![] bcast_S_S100000 (constant (F := F) S_ .f32 0x3F800000#32)))

/-- The inverse square root of a node's degree where it is positive, zero elsewhere. -/
def invSqrtDegree (d : Ends F) : PerNode F :=
  select (hasEdges d) (rsqrtDegree d) (broadcastInDim S100000 ![] bcast_S_S100000 (constant (F := F) S_ .f32 0x00000000#32))

/-- One coefficient per edge: the product of the two endpoints' inverse square root degrees. -/
def coefficients (s d : Ends F) : PerEdge F :=
  mulf (Host.gather gather_S100000_S3300000x1_S3300000_n_0_n_n_0_1_1 (invSqrtDegree d) (wrapIdx s))
    (Host.gather gather_S100000_S3300000x1_S3300000_n_0_n_n_0_1_1 (invSqrtDegree d) (wrapIdx d))

/-- Aggregation: every edge adds its source's row, scaled by its coefficient, into its target's row. -/
def aggregate (t : Feat F) (s d : Ends F) (n : PerEdge F) : Feat F :=
  Host.scatterAdd (F := F) scatter_S100000x64_S3300000x1_S3300000x64_1_0_0_1
    (broadcastInDim S100000x64 ![] bcast_S_S100000x64 (constant (F := F) S_ .f32 0x00000000#32))
    (broadcastInDim S3300000x1 ![0] bcast_S3300000_S3300000x1_0 d)
    (mulf (Host.gather gather_S100000x64_S3300000x1_S3300000x64_1_0_n_n_0_1_164 t (wrapIdx s))
      (broadcastInDim S3300000x64 ![0, 1] bcast_S3300000x1_S3300000x64_0_1 (broadcastInDim S3300000x1 ![0] bcast_S3300000_S3300000x1_0 n)))

end Cert.Graph

end
-- ==== Proof.KernelGraph.lean ====
/-
  The kernel program's host operations before its first dense stage, read. Three stretches of host operations run
  from the launch to the first stage's entry. The first leaves the two endpoint arrays, the test "degree positive"
  and the inverse square root of the degree raised to at least one; the second (the outlined select) joins these into
  the inverse square root degree, zero where the degree is zero; the third leaves the edge coefficients. Each is the
  graph function of that name applied to the edge list as launched; the arrays the first stage reads, the node
  features and the first weights, are untouched.
-/
import proofs.«152510_j77275051590185_1_alg».proof.Proof.Gen.KernelIdeal.Frame
import proofs.«152510_j77275051590185_1_alg».proof.Proof.Graph
import Idealize.ShloMosaic.Lib.StableHlo.Run

set_option maxRecDepth 16384

noncomputable section

namespace Cert.KernelIdeal.Host

open Cert.KernelIdeal Cert.KernelIdeal.Gen Cert.Graph
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A buffer that no operation of a stretch writes holds after it what it held before. -/
local macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## After the first stretch -/

theorem W1_sources (c : Dev nD) : (W1 m ρ c (Proc.devRef .tc main_v3) : Ends F) = sources (m ((c : Thread nD τ).loc main_arg1)) := by
  show StableHlo.after hostOps0 (W0 m ρ c) (Proc.devRef .tc main_v3) = _
  after_results <;> rfl

theorem W1_targets (c : Dev nD) : (W1 m ρ c (Proc.devRef .tc main_v6) : Ends F) = targets (m ((c : Thread nD τ).loc main_arg1)) := by
  show StableHlo.after hostOps0 (W0 m ρ c) (Proc.devRef .tc main_v6) = _
  after_results <;> rfl

theorem W1_hasEdges (c : Dev nD) : W1 m ρ c (Proc.devRef .tc main_v12) = hasEdges (targets (m ((c : Thread nD τ).loc main_arg1))) := by
  show StableHlo.after hostOps0 (W0 m ρ c) (Proc.devRef .tc main_v12) = _
  after_results <;> rfl

theorem W1_rsqrtDegree (c : Dev nD) : (W1 m ρ c (Proc.devRef .tc main_v15) : PerNode F) = rsqrtDegree (targets (m ((c : Thread nD τ).loc main_arg1))) := by
  show StableHlo.after hostOps0 (W0 m ρ c) (Proc.devRef .tc main_v15) = _
  after_results <;> rfl

theorem W1_zero (c : Dev nD) : W1 m ρ c (Proc.devRef .tc main_cst_3) = constant (F := F) S_ .f32 0x00000000#32 := by
  show StableHlo.after hostOps0 (W0 m ρ c) (Proc.devRef .tc main_cst_3) = _
  after_results <;> rfl

/-! ## After the outlined select -/

theorem W2_invSqrtDegree (c : Dev nD) : (W2 m ρ c (Proc.devRef .tc main_v16) : PerNode F) = invSqrtDegree (targets (m ((c : Thread nD τ).loc main_arg1))) := by
  have h1 := W1_hasEdges m ρ c
  have h2 := W1_rsqrtDegree m ρ c
  have h3 := W1_zero m ρ c
  show StableHlo.after hostOps0_1 (W1 m ρ c) (Proc.devRef .tc main_v16) = _
  generalize W1 m ρ c = V at h1 h2 h3 ⊢
  after_results
  rw [h1, h2, h3]
  rfl

theorem W2_sources (c : Dev nD) : (W2 m ρ c (Proc.devRef .tc main_v3) : Ends F) = sources (m ((c : Thread nD τ).loc main_arg1)) :=
  (show StableHlo.after hostOps0_1 (W1 m ρ c) (Proc.devRef .tc main_v3) = W1 m ρ c (Proc.devRef .tc main_v3) by host_keeps hostOps0_1).trans (W1_sources m ρ c)

theorem W2_targets (c : Dev nD) : (W2 m ρ c (Proc.devRef .tc main_v6) : Ends F) = targets (m ((c : Thread nD τ).loc main_arg1)) :=
  (show StableHlo.after hostOps0_1 (W1 m ρ c) (Proc.devRef .tc main_v6) = W1 m ρ c (Proc.devRef .tc main_v6) by host_keeps hostOps0_1).trans (W1_targets m ρ c)

/-! ## After the third stretch: the first dense stage's entry -/

set_option maxHeartbeats 4000000 in
theorem W3_coefficients (c : Dev nD) : (W3 m ρ c (Proc.devRef .tc main_v31) : PerEdge F)
    = coefficients (sources (m ((c : Thread nD τ).loc main_arg1))) (targets (m ((c : Thread nD τ).loc main_arg1))) := by
  have h1 := W2_invSqrtDegree m ρ c
  have h2 := W2_sources m ρ c
  have h3 := W2_targets m ρ c
  show StableHlo.after hostOps0_2 (W2 m ρ c) (Proc.devRef .tc main_v31) = _
  generalize W2 m ρ c = V at h1 h2 h3 ⊢
  after_results_simp
  simp only [h1, h2, h3]
  rfl

theorem W3_sources (c : Dev nD) : (W3 m ρ c (Proc.devRef .tc main_v3) : Ends F) = sources (m ((c : Thread nD τ).loc main_arg1)) :=
  (show StableHlo.after hostOps0_2 (W2 m ρ c) (Proc.devRef .tc main_v3) = W2 m ρ c (Proc.devRef .tc main_v3) by host_keeps hostOps0_2).trans (W2_sources m ρ c)

theorem W3_targets (c : Dev nD) : (W3 m ρ c (Proc.devRef .tc main_v6) : Ends F) = targets (m ((c : Thread nD τ).loc main_arg1)) :=
  (show StableHlo.after hostOps0_2 (W2 m ρ c) (Proc.devRef .tc main_v6) = W2 m ρ c (Proc.devRef .tc main_v6) by host_keeps hostOps0_2).trans (W2_targets m ρ c)

/-- An argument array at the first dense stage's entry is as launched: no operation of the three stretches writes it. -/
theorem W3_arg (c : Dev nD) (b : Ref sig .tc)
    (h0 : StableHlo.after hostOps0 (W0 m ρ c) (Proc.devRef .tc b) = W0 m ρ c (Proc.devRef .tc b))
    (h1 : StableHlo.after hostOps0_1 (W1 m ρ c) (Proc.devRef .tc b) = W1 m ρ c (Proc.devRef .tc b))
    (h2 : StableHlo.after hostOps0_2 (W2 m ρ c) (Proc.devRef .tc b) = W2 m ρ c (Proc.devRef .tc b)) :
    W3 m ρ c (Proc.devRef .tc b) = m ((c : Thread nD τ).loc b) :=
  h2.trans (h1.trans h0)

theorem W3_main_arg0 (c : Dev nD) : W3 m ρ c (Proc.devRef .tc main_arg0) = m ((c : Thread nD τ).loc main_arg0) :=
  W3_arg m ρ c main_arg0 (by host_keeps hostOps0) (by host_keeps hostOps0_1) (by host_keeps hostOps0_2)
theorem W3_main_arg2 (c : Dev nD) : W3 m ρ c (Proc.devRef .tc main_arg2) = m ((c : Thread nD τ).loc main_arg2) :=
  W3_arg m ρ c main_arg2 (by host_keeps hostOps0) (by host_keeps hostOps0_1) (by host_keeps hostOps0_2)
theorem W3_main_arg3 (c : Dev nD) : W3 m ρ c (Proc.devRef .tc main_arg3) = m ((c : Thread nD τ).loc main_arg3) :=
  W3_arg m ρ c main_arg3 (by host_keeps hostOps0) (by host_keeps hostOps0_1) (by host_keeps hostOps0_2)
theorem W3_main_arg4 (c : Dev nD) : W3 m ρ c (Proc.devRef .tc main_arg4) = m ((c : Thread nD τ).loc main_arg4) :=
  W3_arg m ρ c main_arg4 (by host_keeps hostOps0) (by host_keeps hostOps0_1) (by host_keeps hostOps0_2)
theorem W3_main_arg5 (c : Dev nD) : W3 m ρ c (Proc.devRef .tc main_arg5) = m ((c : Thread nD τ).loc main_arg5) :=
  W3_arg m ρ c main_arg5 (by host_keeps hostOps0) (by host_keeps hostOps0_1) (by host_keeps hostOps0_2)
theorem W3_main_arg6 (c : Dev nD) : W3 m ρ c (Proc.devRef .tc main_arg6) = m ((c : Thread nD τ).loc main_arg6) :=
  W3_arg m ρ c main_arg6 (by host_keeps hostOps0) (by host_keeps hostOps0_1) (by host_keeps hostOps0_2)
theorem W3_main_arg7 (c : Dev nD) : W3 m ρ c (Proc.devRef .tc main_arg7) = m ((c : Thread nD τ).loc main_arg7) :=
  W3_arg m ρ c main_arg7 (by host_keeps hostOps0) (by host_keeps hostOps0_1) (by host_keeps hostOps0_2)

end Cert.KernelIdeal.Host

end
-- ==== Proof.LibDotIx2.lean ====
/-
  A plain matrix product read at a row and a column, for operands of any float formats. For dimension numbers that
  contract the left operand's second axis with the right operand's first and batch nothing — stated by the four
  coordinate facts of the operand indices — the contraction at (r, c) is the finite sum over k of
  left (r, k) * right (k, c). Two readings rest on it: a matrix-unit product into the zero accumulator, and the
  host's dot_general; at the extended reals both are that sum, whatever formats the operands were rounded to on the way.
-/
import Idealize.ShloMosaic.PureOps.Ideal.Laws
import Idealize.ShloMosaic.Lib.ValueIdx

noncomputable section

open scoped BigOperators

namespace Idealize.ShloMosaic.ValueIdx

open Idealize.ShloMosaic

/-- The facts that say a dot's dimension numbers are those of a plain M x K by K x N product. -/
structure PlainDot {M K N : ℕ} (d : DotDims (⟨2, ![M, K]⟩ : Shape) (⟨2, ![K, N]⟩ : Shape) (⟨2, ![M, N]⟩ : Shape)) : Prop where
  rank : d.contr.rank = 1
  size : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

/-- The contraction of a plain product at (r, c), re-indexed by the inner position k. -/
theorem contraction_ix2 {M K N : ℕ} {d : DotDims (⟨2, ![M, K]⟩ : Shape) (⟨2, ![K, N]⟩ : Shape) (⟨2, ![M, N]⟩ : Shape)}
    (hd : PlainDot d) (lhs : (⟨2, ![M, K]⟩ : Shape).Idx → EReal) (rhs : (⟨2, ![K, N]⟩ : Shape).Idx → EReal) (r : Fin M) (c : Fin N) :
    (∑ q : d.contr.Idx, lhs (d.lhsIdx (ix2 r c) q) * rhs (d.rhsIdx (ix2 r c) q)) = ∑ k : Fin K, lhs (ix2 r k) * rhs (ix2 k c) := by
  rw [← Equiv.sum_comp (contrEquiv1 d K hd.rank hd.size).symm]
  refine Finset.sum_congr rfl fun k _ => ?_
  have hk := contrEquiv1_symm_val d K hd.rank hd.size k
  have el : d.lhsIdx (ix2 r c) ((contrEquiv1 d K hd.rank hd.size).symm k) = ix2 r k := funext fun a => Fin.ext (by
    match a with
    | ⟨0, _⟩ => exact hd.l0 _ _
    | ⟨1, _⟩ => exact (hd.l1 _ _).trans hk)
  have er : d.rhsIdx (ix2 r c) ((contrEquiv1 d K hd.rank hd.size).symm k) = ix2 k c := funext fun a => Fin.ext (by
    match a with
    | ⟨0, _⟩ => exact (hd.r0 _ _).trans hk
    | ⟨1, _⟩ => exact hd.r1 _ _)
  rw [el, er]

/-- A matrix-unit product of an M x K by a K x N array into zeros, at (r, c): the sum over the K inner positions. -/
theorem matmul_zero_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, (lhs (ix2 r k) : EReal) * (rhs (ix2 k c) : EReal) := by
  rw [Ideal.matmul_constant_zero_apply]
  exact contraction_ix2 hd lhs rhs r c

/-- The host's dot_general of an M x K by a K x N array, at (r, c): the same sum. -/
theorem dotGeneral_ix2_any {M K N : ℕ} {φ₁ φ₂ : FTy} {d : DotDims (⟨2, ![M, K]⟩ : Shape) (⟨2, ![K, N]⟩ : Shape) (⟨2, ![M, N]⟩ : Shape)}
    (hd : PlainDot d) (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c)
      = ∑ k : Fin K, (lhs (ix2 r k) : EReal) * (rhs (ix2 k c) : EReal) := by
  rw [Ideal.dotGeneral_apply]
  exact contraction_ix2 hd lhs rhs r c

end Idealize.ShloMosaic.ValueIdx

end
-- ==== Proof.Spec.lean ====
/-
  The dense stages of a two-layer graph convolution with a linear head, as whole-array functions over the extended
  reals. Between the aggregation steps (which gather rows along edges, scale them and add them up per target node)
  the network applies three kinds of dense stage to a node-by-feature array:
    * a matrix product, entry (r, c) the sum over k of x (r, k) · w (k, c);
    * a row of biases added to every row followed by the positive part max (·, 0);
    * a matrix product followed by one bias added to every entry.
  Each is stated once here, index by index, for arrays of any extents; the bias is kept in the two-axis layout
  (1 × N, or 1 × 1) in which the dense stage receives it.
-/
import proofs.«152510_j77275051590185_1_alg».proof.Proof.LibDotIx2
import Idealize.ShloMosaic.Lib.ValueIdx
import Idealize.ShloMosaic.PureOps.Ideal

noncomputable section

open scoped BigOperators

namespace Cert.Dense

open Idealize.ShloMosaic Idealize.ShloMosaic.ValueIdx

/-- An a × b array of extended reals. -/
abbrev Mat (a b : ℕ) := (⟨2, ![a, b]⟩ : Shape).Idx → EReal

/-- The product of an M × K by a K × N array: entry (r, c) is the sum over k of x (r, k) · w (k, c). -/
def matProd {M K N : ℕ} (x : Mat M K) (w : Mat K N) : Mat M N :=
  fun j => ∑ k : Fin K, x (ix2 (j 0) k) * w (ix2 k (j 1))

/-- A row of biases added to every row of an array, then the positive part. -/
def biasRelu {M N : ℕ} (a : Mat M N) (b : Mat 1 N) : Mat M N :=
  fun j => max (a j + b (ix2 0 (j 1))) (Ideal.ofBits .f32 0x00000000#32)

/-- A matrix product with one bias added to every entry. -/
def matProdBias {M K N : ℕ} (x : Mat M K) (w : Mat K N) (b : Mat 1 1) : Mat M N :=
  fun j => matProd x w j + b (ix2 0 0)

theorem matProd_apply {M K N : ℕ} (x : Mat M K) (w : Mat K N) (r : Fin M) (c : Fin N) :
    matProd x w (ix2 r c) = ∑ k : Fin K, x (ix2 r k) * w (ix2 k c) := rfl

end Cert.Dense

end
-- ==== Proof.Region0.lean ====
/-
  The first dense stage: the node features times the first layer's weights, a 100000 × 128 by 128 × 64 product.
  The launch walks ten grid points; point t stages rows 10000·t … 10000·t + 9999 of the left array (all of its
  128 columns), the whole 128 × 64 right array, and writes back rows 10000·t … 10000·t + 9999 of the result. The body rounds both
  operands to bf16 on the way into the matrix unit, which over the extended reals changes nothing, and multiplies
  into a zero accumulator: entry (r, c) of the block is the sum over k of left (r, k) · right (k, c). Row r of
  block t is row 10000·t + r of the array, so each block is the restriction of ONE whole-array function, and the
  ten blocks tile the result: the array ends holding that function of the two arrays the launch was entered with.
-/
import proofs.«152510_j77275051590185_1_alg».proof.Proof.Gen.KernelIdeal.Frame
import proofs.«152510_j77275051590185_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage0

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain product: the left operand's columns against the right's rows. -/
theorem plain : PlainDot dot_S10000x128_S128x64_S10000x64_1_0_0_1_n_n where
  rank := rfl
  size := rfl
  l0 := fun j q => by
    unfold DotDims.lhsIdx
    rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
    rfl
  l1 := fun j q => dot_S10000x128_S128x64_S10000x64_1_0_0_1_n_n.lhsIdx_val_of_single rfl j q
  r0 := fun j q => dot_S10000x128_S128x64_S10000x64_1_0_0_1_n_n.rhsIdx_val_of_single rfl j q
  r1 := fun j q => by
    unfold DotDims.rhsIdx
    rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
    rfl

/-- What the body stores, at row r and column q of the block: the inner product of the left block's row r with the
    right array's column q. -/
theorem stored_apply (x0 : Vec Ideal S10000x128 .f32) (x1 : Vec Ideal S128x64 .f32) (r : Fin 10000) (q : Fin 64) :
    k0_pay1 x0 x1 (ix2 r q) = (∑ k : Fin 128, x0 (ix2 r k) * x1 (ix2 k q)) := by
  unfold k0_pay1
  exact matmul_zero_ix2_any plain none (truncf .bf16 x0 bitsLt_bf16_f32) (truncf .bf16 x1 bitsLt_bf16_f32) r q

/-- The printed index maps over the grid: the left and the result windows move down one row block per point, the
    right window stays at block (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- What point t writes back is block t of the whole-array function of the arrays the launch was entered with. -/
theorem flushed_eq (c : Dev nD) (t : Fin cfg0.N) :
    (dat0 V c).flushed 2 t = ((cfg0.win 2).blk t).view.read (Elt Ideal)
      (matProd (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  obtain ⟨e0, e1, e2, e3, e4, e5, -⟩ := index_facts t
  funext j
  show k0_pay1 (iblk0 V c 0 t) (iblk0 V c 1 t) j
    = matProd (V c main_arg0) (V c main_arg2) (((cfg0.win 2).blk t).view.emb j)
  rw [eq_ix2 j]
  refine (stored_apply _ _ (j 0) (j 1)).trans ?_
  unfold matProd
  refine Finset.sum_congr rfl fun k _ => ?_
  refine congrArg₂ (· * ·) ?_ ?_
  · show V c main_arg0 (((cfg0.win 0).blk t).view.emb (ix2 (j 0) k)) = V c main_arg0 _
    refine congrArg _ (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  · show V c main_arg2 (((cfg0.win 1).blk t).view.emb (ix2 k (j 1))) = V c main_arg2 _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega

/-- An index of the result array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- Every block of rows is some point's. -/
theorem index_onto : ∀ q : Fin 10, ∃ t : Fin cfg0.N, win0_2.index t = ![q.val, 0] :=
  (by decide +kernel : ∀ q : Fin 10, ∃ t : Fin grid0.N, win0_2.index t = ![q.val, 0])

/-- After the launch the result array holds the whole-array function of the arrays the launch was entered with:
    row r is written by point r / 10000. -/
theorem final (c : Dev nD) : (dat0 V c).arrAt 2 cfg0.N = matProd (V c main_arg0) (V c main_arg2) :=
  (dat0 V c).arrAt_eq_of_cover 2 _ (fun t _ => flushed_eq V c t) fun i => by
    have hi0 : (i 0).val < 100000 := (i 0).isLt
    have hi1 : (i 1).val < 64 := (i 1).isLt
    obtain ⟨t, ht⟩ := index_onto ⟨(i 0).val / 10000, by omega⟩
    have q0 : win0_2.index t (0 : Fin 2) = (i 0).val / 10000 := congrFun ht 0
    have q1 : win0_2.index t (1 : Fin 2) = 0 := congrFun ht 1
    refine ⟨t, flush0_2 t, ?_⟩
    rw [mem_blk]
    intro a
    match a with
    | ⟨0, _⟩ => show win0_2.index t (0 : Fin 2) * 10000 ≤ (i 0).val ∧ (i 0).val < win0_2.index t (0 : Fin 2) * 10000 + 10000; omega
    | ⟨1, _⟩ => show win0_2.index t (1 : Fin 2) * 64 ≤ (i 1).val ∧ (i 1).val < win0_2.index t (1 : Fin 2) * 64 + 64; omega

end Cert.KernelIdeal.Stage0

end
-- ==== Proof.Region1.lean ====
/-
  The second dense stage: the first layer's bias and positive part, on the 100000 × 64 array the first aggregation leaves.
  The launch walks ten grid points; point t stages rows 10000·t … 10000·t + 9999 of the aggregated array (all 64
  columns) and the whole 1 × 64 bias row, and writes back rows 10000·t … 10000·t + 9999 of the result. The body adds
  the bias row to every row of the block and takes the maximum with zero, entry by entry. Row r of block t is row
  10000·t + r of the array, so each block is the restriction of ONE whole-array function, and the ten blocks tile
  the result: the array ends holding that function of the two arrays the launch was entered with.
-/
import proofs.«152510_j77275051590185_1_alg».proof.Proof.Gen.KernelIdeal.Frame
import proofs.«152510_j77275051590185_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage1

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- What the body stores, at row r and column q of the block: the block's entry plus the bias of column q, or zero
    if that is negative. -/
theorem stored_apply (x0 : Vec Ideal S10000x64 .f32) (x1 : Vec Ideal S1x64 .f32) (r : Fin 10000) (q : Fin 64) :
    k1_pay1 x0 x1 (ix2 r q) = max (x0 (ix2 r q) + x1 (ix2 0 q)) (Ideal.ofBits .f32 0x00000000#32) := by
  unfold k1_pay1
  rw [shapeCast_self, shapeCast_self]
  refine congrArg₂ max (congrArg₂ (· + ·) rfl ?_) rfl
  exact broadcastTo_apply x1 broadcasts_S1x64_S10000x64 (ix2 r q) (ix2 0 q) (fun a => by
    match a with
    | ⟨0, _⟩ => rfl
    | ⟨1, _⟩ => rfl)

/-- The printed index maps over the grid: the aggregated array's and the result's windows move down one row block
    per point, the bias window stays at block (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 10 :=
  (by decide +kernel : ∀ t : Fin grid1.N, _)

/-- What point t writes back is block t of the whole-array function of the arrays the launch was entered with. -/
theorem flushed_eq (c : Dev nD) (t : Fin cfg1.N) :
    (dat1 V c).flushed 2 t = ((cfg1.win 2).blk t).view.read (Elt Ideal)
      (biasRelu (V c main_v45) (V c main_v46)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5, -⟩ := index_facts t
  funext j
  show k1_pay1 (iblk1 V c 0 t) (iblk1 V c 1 t) j
    = biasRelu (V c main_v45) (V c main_v46) (((cfg1.win 2).blk t).view.emb j)
  rw [eq_ix2 j]
  refine (stored_apply _ _ (j 0) (j 1)).trans ?_
  unfold biasRelu
  refine congrArg₂ max (congrArg₂ (· + ·) ?_ ?_) rfl
  · show V c main_v45 (((cfg1.win 0).blk t).view.emb (ix2 (j 0) (j 1))) = V c main_v45 _
    refine congrArg _ (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · show V c main_v46 (((cfg1.win 1).blk t).view.emb (ix2 0 (j 1))) = V c main_v46 _
    refine congrArg _ (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega

/-- An index of the result array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Every block of rows is some point's. -/
theorem index_onto : ∀ q : Fin 10, ∃ t : Fin cfg1.N, win1_2.index t = ![q.val, 0] :=
  (by decide +kernel : ∀ q : Fin 10, ∃ t : Fin grid1.N, win1_2.index t = ![q.val, 0])

/-- After the launch the result array holds the whole-array function of the arrays the launch was entered with:
    row r is written by point r / 10000. -/
theorem final (c : Dev nD) : (dat1 V c).arrAt 2 cfg1.N = biasRelu (V c main_v45) (V c main_v46) :=
  (dat1 V c).arrAt_eq_of_cover 2 _ (fun t _ => flushed_eq V c t) fun i => by
    have hi0 : (i 0).val < 100000 := (i 0).isLt
    have hi1 : (i 1).val < 64 := (i 1).isLt
    obtain ⟨t, ht⟩ := index_onto ⟨(i 0).val / 10000, by omega⟩
    have q0 : win1_2.index t (0 : Fin 2) = (i 0).val / 10000 := congrFun ht 0
    have q1 : win1_2.index t (1 : Fin 2) = 0 := congrFun ht 1
    refine ⟨t, flush1_2 t, ?_⟩
    rw [mem_blk]
    intro a
    match a with
    | ⟨0, _⟩ => show win1_2.index t (0 : Fin 2) * 10000 ≤ (i 0).val ∧ (i 0).val < win1_2.index t (0 : Fin 2) * 10000 + 10000; omega
    | ⟨1, _⟩ => show win1_2.index t (1 : Fin 2) * 64 ≤ (i 1).val ∧ (i 1).val < win1_2.index t (1 : Fin 2) * 64 + 64; omega

end Cert.KernelIdeal.Stage1

end
-- ==== Proof.Region2.lean ====
/-
  The third dense stage: the first layer's activations times the second layer's weights, a 100000 × 64 by 64 × 64 product.
  The launch walks ten grid points; point t stages rows 10000·t … 10000·t + 9999 of the left array (all of its
  64 columns), the whole 64 × 64 right array, and writes back rows 10000·t … 10000·t + 9999 of the result. The body rounds both
  operands to bf16 on the way into the matrix unit, which over the extended reals changes nothing, and multiplies
  into a zero accumulator: entry (r, c) of the block is the sum over k of left (r, k) · right (k, c). Row r of
  block t is row 10000·t + r of the array, so each block is the restriction of ONE whole-array function, and the
  ten blocks tile the result: the array ends holding that function of the two arrays the launch was entered with.
-/
import proofs.«152510_j77275051590185_1_alg».proof.Proof.Gen.KernelIdeal.Frame
import proofs.«152510_j77275051590185_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage2

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain product: the left operand's columns against the right's rows. -/
theorem plain : PlainDot dot_S10000x64_S64x64_S10000x64_1_0_0_1_n_n where
  rank := rfl
  size := rfl
  l0 := fun j q => by
    unfold DotDims.lhsIdx
    rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
    rfl
  l1 := fun j q => dot_S10000x64_S64x64_S10000x64_1_0_0_1_n_n.lhsIdx_val_of_single rfl j q
  r0 := fun j q => dot_S10000x64_S64x64_S10000x64_1_0_0_1_n_n.rhsIdx_val_of_single rfl j q
  r1 := fun j q => by
    unfold DotDims.rhsIdx
    rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
    rfl

/-- What the body stores, at row r and column q of the block: the inner product of the left block's row r with the
    right array's column q. -/
theorem stored_apply (x0 : Vec Ideal S10000x64 .f32) (x1 : Vec Ideal S64x64 .f32) (r : Fin 10000) (q : Fin 64) :
    k2_pay1 x0 x1 (ix2 r q) = (∑ k : Fin 64, x0 (ix2 r k) * x1 (ix2 k q)) := by
  unfold k2_pay1
  rw [shapeCast_self]
  exact matmul_zero_ix2_any plain none (truncf .bf16 x0 bitsLt_bf16_f32) (truncf .bf16 x1 bitsLt_bf16_f32) r q

/-- The printed index maps over the grid: the left and the result windows move down one row block per point, the
    right window stays at block (0, 0). -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- What point t writes back is block t of the whole-array function of the arrays the launch was entered with. -/
theorem flushed_eq (c : Dev nD) (t : Fin cfg2.N) :
    (dat2 V c).flushed 2 t = ((cfg2.win 2).blk t).view.read (Elt Ideal)
      (matProd (V c main_v47) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5, -⟩ := index_facts t
  funext j
  show k2_pay1 (iblk2 V c 0 t) (iblk2 V c 1 t) j
    = matProd (V c main_v47) (V c main_arg4) (((cfg2.win 2).blk t).view.emb j)
  rw [eq_ix2 j]
  refine (stored_apply _ _ (j 0) (j 1)).trans ?_
  unfold matProd
  refine Finset.sum_congr rfl fun k _ => ?_
  refine congrArg₂ (· * ·) ?_ ?_
  · show V c main_v47 (((cfg2.win 0).blk t).view.emb (ix2 (j 0) k)) = V c main_v47 _
    refine congrArg _ (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_arg4 (((cfg2.win 1).blk t).view.emb (ix2 k (j 1))) = V c main_arg4 _
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the result array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- Every block of rows is some point's. -/
theorem index_onto : ∀ q : Fin 10, ∃ t : Fin cfg2.N, win2_2.index t = ![q.val, 0] :=
  (by decide +kernel : ∀ q : Fin 10, ∃ t : Fin grid2.N, win2_2.index t = ![q.val, 0])

/-- After the launch the result array holds the whole-array function of the arrays the launch was entered with:
    row r is written by point r / 10000. -/
theorem final (c : Dev nD) : (dat2 V c).arrAt 2 cfg2.N = matProd (V c main_v47) (V c main_arg4) :=
  (dat2 V c).arrAt_eq_of_cover 2 _ (fun t _ => flushed_eq V c t) fun i => by
    have hi0 : (i 0).val < 100000 := (i 0).isLt
    have hi1 : (i 1).val < 64 := (i 1).isLt
    obtain ⟨t, ht⟩ := index_onto ⟨(i 0).val / 10000, by omega⟩
    have q0 : win2_2.index t (0 : Fin 2) = (i 0).val / 10000 := congrFun ht 0
    have q1 : win2_2.index t (1 : Fin 2) = 0 := congrFun ht 1
    refine ⟨t, flush2_2 t, ?_⟩
    rw [mem_blk]
    intro a
    match a with
    | ⟨0, _⟩ => show win2_2.index t (0 : Fin 2) * 10000 ≤ (i 0).val ∧ (i 0).val < win2_2.index t (0 : Fin 2) * 10000 + 10000; omega
    | ⟨1, _⟩ => show win2_2.index t (1 : Fin 2) * 64 ≤ (i 1).val ∧ (i 1).val < win2_2.index t (1 : Fin 2) * 64 + 64; omega

end Cert.KernelIdeal.Stage2

end
-- ==== Proof.Region3.lean ====
/-
  The fourth dense stage: the second layer's bias and positive part, on the 100000 × 64 array the second aggregation leaves.
  The launch walks ten grid points; point t stages rows 10000·t … 10000·t + 9999 of the aggregated array (all 64
  columns) and the whole 1 × 64 bias row, and writes back rows 10000·t … 10000·t + 9999 of the result. The body adds
  the bias row to every row of the block and takes the maximum with zero, entry by entry. Row r of block t is row
  10000·t + r of the array, so each block is the restriction of ONE whole-array function, and the ten blocks tile
  the result: the array ends holding that function of the two arrays the launch was entered with.
-/
import proofs.«152510_j77275051590185_1_alg».proof.Proof.Gen.KernelIdeal.Frame
import proofs.«152510_j77275051590185_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage3

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- What the body stores, at row r and column q of the block: the block's entry plus the bias of column q, or zero
    if that is negative. -/
theorem stored_apply (x0 : Vec Ideal S10000x64 .f32) (x1 : Vec Ideal S1x64 .f32) (r : Fin 10000) (q : Fin 64) :
    k3_pay1 x0 x1 (ix2 r q) = max (x0 (ix2 r q) + x1 (ix2 0 q)) (Ideal.ofBits .f32 0x00000000#32) := by
  unfold k3_pay1
  rw [shapeCast_self, shapeCast_self]
  refine congrArg₂ max (congrArg₂ (· + ·) rfl ?_) rfl
  exact broadcastTo_apply x1 broadcasts_S1x64_S10000x64 (ix2 r q) (ix2 0 q) (fun a => by
    match a with
    | ⟨0, _⟩ => rfl
    | ⟨1, _⟩ => rfl)

/-- The printed index maps over the grid: the aggregated array's and the result's windows move down one row block
    per point, the bias window stays at block (0, 0). -/
theorem index_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 10 :=
  (by decide +kernel : ∀ t : Fin grid3.N, _)

/-- What point t writes back is block t of the whole-array function of the arrays the launch was entered with. -/
theorem flushed_eq (c : Dev nD) (t : Fin cfg3.N) :
    (dat3 V c).flushed 2 t = ((cfg3.win 2).blk t).view.read (Elt Ideal)
      (biasRelu (V c main_v61) (V c main_v62)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5, -⟩ := index_facts t
  funext j
  show k3_pay1 (iblk3 V c 0 t) (iblk3 V c 1 t) j
    = biasRelu (V c main_v61) (V c main_v62) (((cfg3.win 2).blk t).view.emb j)
  rw [eq_ix2 j]
  refine (stored_apply _ _ (j 0) (j 1)).trans ?_
  unfold biasRelu
  refine congrArg₂ max (congrArg₂ (· + ·) ?_ ?_) rfl
  · show V c main_v61 (((cfg3.win 0).blk t).view.emb (ix2 (j 0) (j 1))) = V c main_v61 _
    refine congrArg _ (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · show V c main_v62 (((cfg3.win 1).blk t).view.emb (ix2 0 (j 1))) = V c main_v62 _
    refine congrArg _ (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega

/-- An index of the result array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- Every block of rows is some point's. -/
theorem index_onto : ∀ q : Fin 10, ∃ t : Fin cfg3.N, win3_2.index t = ![q.val, 0] :=
  (by decide +kernel : ∀ q : Fin 10, ∃ t : Fin grid3.N, win3_2.index t = ![q.val, 0])

/-- After the launch the result array holds the whole-array function of the arrays the launch was entered with:
    row r is written by point r / 10000. -/
theorem final (c : Dev nD) : (dat3 V c).arrAt 2 cfg3.N = biasRelu (V c main_v61) (V c main_v62) :=
  (dat3 V c).arrAt_eq_of_cover 2 _ (fun t _ => flushed_eq V c t) fun i => by
    have hi0 : (i 0).val < 100000 := (i 0).isLt
    have hi1 : (i 1).val < 64 := (i 1).isLt
    obtain ⟨t, ht⟩ := index_onto ⟨(i 0).val / 10000, by omega⟩
    have q0 : win3_2.index t (0 : Fin 2) = (i 0).val / 10000 := congrFun ht 0
    have q1 : win3_2.index t (1 : Fin 2) = 0 := congrFun ht 1
    refine ⟨t, flush3_2 t, ?_⟩
    rw [mem_blk]
    intro a
    match a with
    | ⟨0, _⟩ => show win3_2.index t (0 : Fin 2) * 10000 ≤ (i 0).val ∧ (i 0).val < win3_2.index t (0 : Fin 2) * 10000 + 10000; omega
    | ⟨1, _⟩ => show win3_2.index t (1 : Fin 2) * 64 ≤ (i 1).val ∧ (i 1).val < win3_2.index t (1 : Fin 2) * 64 + 64; omega

end Cert.KernelIdeal.Stage3

end
-- ==== Proof.Region4.lean ====
/-
  The last dense stage, the linear head: the second layer's activations times a 64 × 1 weight column, plus one bias.
  The launch walks ten grid points; point t stages rows 10000·t … 10000·t + 9999 of the left array (all of its
  64 columns), the whole 64 × 1 right array and the 1 × 1 bias, and writes back rows 10000·t … 10000·t + 9999 of the result. The body rounds both
  operands to bf16 on the way into the matrix unit, which over the extended reals changes nothing, and multiplies
  into a zero accumulator, then adds the bias to every entry: entry (r, c) of the block is the sum over k of left (r, k) · right (k, c) plus the bias. Row r of
  block t is row 10000·t + r of the array, so each block is the restriction of ONE whole-array function, and the
  ten blocks tile the result: the array ends holding that function of the two arrays the launch was entered with.
-/
import proofs.«152510_j77275051590185_1_alg».proof.Proof.Gen.KernelIdeal.Frame
import proofs.«152510_j77275051590185_1_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Stage4

open Cert.KernelIdeal Cert.KernelIdeal.Gen Cert.Dense

variable (V : (c : Dev nD) → (b : Ref sig .tc) → Buf (Elt Ideal) ((c : Thread nD τ).loc b))

theorem hz : (![0, 0] : Fin 2 → Nat) = fun _ => 0 := funext fun a => by fin_cases a <;> rfl

/-- The body's dimension numbers are those of a plain product: the left operand's columns against the right's rows. -/
theorem plain : PlainDot dot_S10000x64_S64x1_S10000x1_1_0_0_1_n_n where
  rank := rfl
  size := rfl
  l0 := fun j q => by
    unfold DotDims.lhsIdx
    rw [dif_neg (show ¬(0 : Fin S10000x64.rank) ∈ dot_S10000x64_S64x1_S10000x1_1_0_0_1_n_n.lhsBatch by decide), dif_pos (show (0 : Fin S10000x64.rank) ∈ dot_S10000x64_S64x1_S10000x1_1_0_0_1_n_n.lhsNonContracting by decide)]
    rfl
  l1 := fun j q => dot_S10000x64_S64x1_S10000x1_1_0_0_1_n_n.lhsIdx_val_of_single rfl j q
  r0 := fun j q => dot_S10000x64_S64x1_S10000x1_1_0_0_1_n_n.rhsIdx_val_of_single rfl j q
  r1 := fun j q => by
    unfold DotDims.rhsIdx
    rw [dif_neg (show ¬(1 : Fin S64x1.rank) ∈ dot_S10000x64_S64x1_S10000x1_1_0_0_1_n_n.rhsBatch by decide), dif_pos (show (1 : Fin S64x1.rank) ∈ dot_S10000x64_S64x1_S10000x1_1_0_0_1_n_n.rhsNonContracting by decide)]
    rfl

/-- What the body stores, at row r and column q of the block: the inner product of the left block's row r with the
    right array's column q, plus the bias. -/
theorem stored_apply (x0 : Vec Ideal S10000x64 .f32) (x1 : Vec Ideal S64x1 .f32) (x2 : Vec Ideal S1x1 .f32) (r : Fin 10000) (q : Fin 1) :
    k4_pay1 x0 x1 x2 (ix2 r q) = (∑ k : Fin 64, x0 (ix2 r k) * x1 (ix2 k q)) + x2 (ix2 0 0) := by
  unfold k4_pay1
  rw [shapeCast_self, shapeCast_self]
  refine congrArg₂ (· + ·) (matmul_zero_ix2_any plain none (truncf .bf16 x0 bitsLt_bf16_f32) (truncf .bf16 x1 bitsLt_bf16_f32) r q) ?_
  exact broadcastTo_apply x2 broadcasts_S1x1_S10000x1 (ix2 r q) (ix2 0 0) (fun a => by
    match a with
    | ⟨0, _⟩ => rfl
    | ⟨1, _⟩ => rfl)

/-- The printed index maps over the grid: the left and the result windows move down one row block per point, the
    right window and the bias window stay at block (0, 0). -/
theorem index_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 10 :=
  (by decide +kernel : ∀ t : Fin grid4.N, _)

/-- What point t writes back is block t of the whole-array function of the arrays the launch was entered with. -/
theorem flushed_eq (c : Dev nD) (t : Fin cfg4.N) :
    (dat4 V c).flushed 3 t = ((cfg4.win 3).blk t).view.read (Elt Ideal)
      (matProdBias (V c main_v63) (V c main_arg6) (V c main_v64)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x1) hz, View.ld_unit_zero (S := S1x1) hz]
  obtain ⟨e0, e1, e2, e3, e6, e7, e4, e5, -⟩ := index_facts t
  funext j
  show k4_pay1 (iblk4 V c 0 t) (iblk4 V c 1 t) (iblk4 V c 2 t) j
    = matProdBias (V c main_v63) (V c main_arg6) (V c main_v64) (((cfg4.win 3).blk t).view.emb j)
  rw [eq_ix2 j]
  refine (stored_apply _ _ _ (j 0) (j 1)).trans ?_
  unfold matProdBias matProd
  refine congrArg₂ (· + ·) ?_ ?_
  · refine Finset.sum_congr rfl fun k _ => ?_
    refine congrArg₂ (· * ·) ?_ ?_
    · show V c main_v63 (((cfg4.win 0).blk t).view.emb (ix2 (j 0) k)) = V c main_v63 _
      refine congrArg _ (funext fun a => Fin.ext ?_)
      match a with
      | ⟨0, _⟩ => show win4_0.index t (0 : Fin 2) * 10000 + 1 * (j 0).val = win4_3.index t (0 : Fin 2) * 10000 + 1 * (j 0).val; omega
      | ⟨1, _⟩ => show win4_0.index t (1 : Fin 2) * 64 + 1 * k.val = k.val; omega
    · show V c main_arg6 (((cfg4.win 1).blk t).view.emb (ix2 k (j 1))) = V c main_arg6 _
      refine congrArg _ (funext fun a => Fin.ext ?_)
      match a with
      | ⟨0, _⟩ => show win4_1.index t (0 : Fin 2) * 64 + 1 * k.val = k.val; omega
      | ⟨1, _⟩ => show win4_1.index t (1 : Fin 2) * 1 + 1 * (j 1).val = win4_3.index t (1 : Fin 2) * 1 + 1 * (j 1).val; omega
  · show V c main_v64 (((cfg4.win 2).blk t).view.emb (ix2 0 0)) = V c main_v64 _
    refine congrArg _ (funext fun a => Fin.ext ?_)
    match a with
    | ⟨0, _⟩ => show win4_2.index t (0 : Fin 2) * 1 + 1 * 0 = 0; omega
    | ⟨1, _⟩ => show win4_2.index t (1 : Fin 2) * 1 + 1 * 0 = 0; omega

/-- An index of the result array is in point t's block iff each coordinate is in the block's range on its axis. -/
theorem mem_blk (t : Fin cfg4.N) (i : S100000x1.Idx) :
    i ∈ ((cfg4.win 3).blk t).view.set ↔ ∀ a : Fin 2, win4_3.index t a * S10000x1.size a ≤ (i a).val ∧ (i a).val < win4_3.index t a * S10000x1.size a + S10000x1.size a := by
  show i ∈ ((View.whole main_v65).slice (win4_3.rect t)).set ↔ _
  rw [View.set_slice_whole, Rect.mem_set_unit]
  exact Iff.rfl

/-- Every block of rows is some point's. -/
theorem index_onto : ∀ q : Fin 10, ∃ t : Fin cfg4.N, win4_3.index t = ![q.val, 0] :=
  (by decide +kernel : ∀ q : Fin 10, ∃ t : Fin grid4.N, win4_3.index t = ![q.val, 0])

/-- After the launch the result array holds the whole-array function of the arrays the launch was entered with:
    row r is written by point r / 10000. -/
theorem final (c : Dev nD) : (dat4 V c).arrAt 3 cfg4.N = matProdBias (V c main_v63) (V c main_arg6) (V c main_v64) :=
  (dat4 V c).arrAt_eq_of_cover 3 _ (fun t _ => flushed_eq V c t) fun i => by
    have hi0 : (i 0).val < 100000 := (i 0).isLt
    have hi1 : (i 1).val < 1 := (i 1).isLt
    obtain ⟨t, ht⟩ := index_onto ⟨(i 0).val / 10000, by omega⟩
    have q0 : win4_3.index t (0 : Fin 2) = (i 0).val / 10000 := congrFun ht 0
    have q1 : win4_3.index t (1 : Fin 2) = 0 := congrFun ht 1
    refine ⟨t, flush4_3 t, ?_⟩
    rw [mem_blk]
    intro a
    match a with
    | ⟨0, _⟩ => show win4_3.index t (0 : Fin 2) * 10000 ≤ (i 0).val ∧ (i 0).val < win4_3.index t (0 : Fin 2) * 10000 + 10000; omega
    | ⟨1, _⟩ => show win4_3.index t (1 : Fin 2) * 1 ≤ (i 1).val ∧ (i 1).val < win4_3.index t (1 : Fin 2) * 1 + 1; omega

end Cert.KernelIdeal.Stage4

end
-- ==== Proof.KernelLayers.lean ====
/-
  The kernel program from its first dense stage to its result, boundary by boundary, over the extended reals.
  Between the launch and the return the buffer contents pass through eleven boundaries; at each one the few arrays
  still to be read are named here as functions of the arguments as launched. A dense stage's result array holds the
  stage's whole-array function of the arrays it was entered with, and every other array passes through a stage
  unchanged; a stretch of host operations leaves the aggregation (the graph function of that name) of the product before
  it, and the next bias row re-laid as a 1 × 64 (or 1 × 1) array; the endpoint arrays, the coefficients and the
  arguments not yet used are written by nothing on the way. The last boundary's result array is the linear head of
  the second layer's activations.
-/
import proofs.«152510_j77275051590185_1_alg».proof.Proof.Gen.KernelIdeal.Frame
import proofs.«152510_j77275051590185_1_alg».proof.Proof.Graph
import proofs.«152510_j77275051590185_1_alg».proof.Proof.KernelGraph
import proofs.«152510_j77275051590185_1_alg».proof.Proof.Spec
import proofs.«152510_j77275051590185_1_alg».proof.Proof.Region0
import proofs.«152510_j77275051590185_1_alg».proof.Proof.Region1
import proofs.«152510_j77275051590185_1_alg».proof.Proof.Region2
import proofs.«152510_j77275051590185_1_alg».proof.Proof.Region3
import proofs.«152510_j77275051590185_1_alg».proof.Proof.Region4
import Idealize.ShloMosaic.Lib.StableHlo.Run

set_option maxRecDepth 16384

noncomputable section

namespace Cert.KernelIdeal.Host

open Cert.KernelIdeal Cert.KernelIdeal.Gen Cert.Graph
open Idealize.ShloMosaic Idealize.ShloMosaic.TcCoe Idealize.SL.Sem Idealize.ShloMosaic.StableHlo

open Cert.Dense

variable (m : (ℓ : Loc nD τ sig) → Buf (Elt Ideal) ℓ) (ρ : Dev nD → PrngReg)

/-- A buffer that no operation of a stretch writes holds after it what it held before. -/
local macro "host_keeps" ops:ident : tactic =>
  `(tactic| exact StableHlo.after_of_forall_not_mem _ _ (List.forall_iff_forall_mem.mp (by
      simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## The first dense stage's exit -/

theorem W4_t1 (c : Dev nD) : W4 m ρ c (Proc.devRef .tc main_v32) = (matProd (m ((c : Thread nD τ).loc main_arg0)) (m ((c : Thread nD τ).loc main_arg2))) :=
  (W4_arr m ρ c 2).trans ((Stage0.final (V3 m ρ) c).trans (congrArg₂ matProd (W3_main_arg0 m ρ c) (W3_main_arg2 m ρ c)))

theorem W4_sources (c : Dev nD) : W4 m ρ c (Proc.devRef .tc main_v3) = (sources (m ((c : Thread nD τ).loc main_arg1))) :=
  (W4_of_ne m ρ c main_v3 (by decide)).trans (W3_sources m ρ c)

theorem W4_targets (c : Dev nD) : W4 m ρ c (Proc.devRef .tc main_v6) = (targets (m ((c : Thread nD τ).loc main_arg1))) :=
  (W4_of_ne m ρ c main_v6 (by decide)).trans (W3_targets m ρ c)

theorem W4_coefficients (c : Dev nD) : W4 m ρ c (Proc.devRef .tc main_v31) = (coefficients (sources (m ((c : Thread nD τ).loc main_arg1))) (targets (m ((c : Thread nD τ).loc main_arg1)))) :=
  (W4_of_ne m ρ c main_v31 (by decide)).trans (W3_coefficients m ρ c)

theorem W4_main_arg3 (c : Dev nD) : W4 m ρ c (Proc.devRef .tc main_arg3) = (m ((c : Thread nD τ).loc main_arg3)) :=
  (W4_of_ne m ρ c main_arg3 (by decide)).trans (W3_main_arg3 m ρ c)

theorem W4_main_arg4 (c : Dev nD) : W4 m ρ c (Proc.devRef .tc main_arg4) = (m ((c : Thread nD τ).loc main_arg4)) :=
  (W4_of_ne m ρ c main_arg4 (by decide)).trans (W3_main_arg4 m ρ c)

theorem W4_main_arg5 (c : Dev nD) : W4 m ρ c (Proc.devRef .tc main_arg5) = (m ((c : Thread nD τ).loc main_arg5)) :=
  (W4_of_ne m ρ c main_arg5 (by decide)).trans (W3_main_arg5 m ρ c)

theorem W4_main_arg6 (c : Dev nD) : W4 m ρ c (Proc.devRef .tc main_arg6) = (m ((c : Thread nD τ).loc main_arg6)) :=
  (W4_of_ne m ρ c main_arg6 (by decide)).trans (W3_main_arg6 m ρ c)

theorem W4_main_arg7 (c : Dev nD) : W4 m ρ c (Proc.devRef .tc main_arg7) = (m ((c : Thread nD τ).loc main_arg7)) :=
  (W4_of_ne m ρ c main_arg7 (by decide)).trans (W3_main_arg7 m ρ c)

/-! ## The first aggregation and the first bias row -/

set_option maxHeartbeats 4000000 in
theorem W5_agg1 (c : Dev nD) : W5 m ρ c (Proc.devRef .tc main_v45) = (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) := by
  have h0 := W4_t1 m ρ c
  have h1 := W4_sources m ρ c
  have h2 := W4_targets m ρ c
  have h3 := W4_coefficients m ρ c
  show StableHlo.after hostOps1 (W4 m ρ c) (Proc.devRef .tc main_v45) = _
  generalize W4 m ρ c = V at h0 h1 h2 h3 ⊢
  after_results_simp
  simp only [h0, h1, h2, h3]
  rfl

set_option maxHeartbeats 4000000 in
theorem W5_bias1 (c : Dev nD) : W5 m ρ c (Proc.devRef .tc main_v46) = (shapeCast S1x64 (m ((c : Thread nD τ).loc main_arg3)) shapeCasts_S64_S1x64) := by
  have h0 := W4_main_arg3 m ρ c
  show StableHlo.after hostOps1 (W4 m ρ c) (Proc.devRef .tc main_v46) = _
  generalize W4 m ρ c = V at h0 ⊢
  after_results_simp
  simp only [h0]
  rfl

theorem W5_sources (c : Dev nD) : W5 m ρ c (Proc.devRef .tc main_v3) = (sources (m ((c : Thread nD τ).loc main_arg1))) :=
  (show StableHlo.after hostOps1 (W4 m ρ c) (Proc.devRef .tc main_v3) = W4 m ρ c (Proc.devRef .tc main_v3) by host_keeps hostOps1).trans (W4_sources m ρ c)

theorem W5_targets (c : Dev nD) : W5 m ρ c (Proc.devRef .tc main_v6) = (targets (m ((c : Thread nD τ).loc main_arg1))) :=
  (show StableHlo.after hostOps1 (W4 m ρ c) (Proc.devRef .tc main_v6) = W4 m ρ c (Proc.devRef .tc main_v6) by host_keeps hostOps1).trans (W4_targets m ρ c)

theorem W5_coefficients (c : Dev nD) : W5 m ρ c (Proc.devRef .tc main_v31) = (coefficients (sources (m ((c : Thread nD τ).loc main_arg1))) (targets (m ((c : Thread nD τ).loc main_arg1)))) :=
  (show StableHlo.after hostOps1 (W4 m ρ c) (Proc.devRef .tc main_v31) = W4 m ρ c (Proc.devRef .tc main_v31) by host_keeps hostOps1).trans (W4_coefficients m ρ c)

theorem W5_main_arg4 (c : Dev nD) : W5 m ρ c (Proc.devRef .tc main_arg4) = (m ((c : Thread nD τ).loc main_arg4)) :=
  (show StableHlo.after hostOps1 (W4 m ρ c) (Proc.devRef .tc main_arg4) = W4 m ρ c (Proc.devRef .tc main_arg4) by host_keeps hostOps1).trans (W4_main_arg4 m ρ c)

theorem W5_main_arg5 (c : Dev nD) : W5 m ρ c (Proc.devRef .tc main_arg5) = (m ((c : Thread nD τ).loc main_arg5)) :=
  (show StableHlo.after hostOps1 (W4 m ρ c) (Proc.devRef .tc main_arg5) = W4 m ρ c (Proc.devRef .tc main_arg5) by host_keeps hostOps1).trans (W4_main_arg5 m ρ c)

theorem W5_main_arg6 (c : Dev nD) : W5 m ρ c (Proc.devRef .tc main_arg6) = (m ((c : Thread nD τ).loc main_arg6)) :=
  (show StableHlo.after hostOps1 (W4 m ρ c) (Proc.devRef .tc main_arg6) = W4 m ρ c (Proc.devRef .tc main_arg6) by host_keeps hostOps1).trans (W4_main_arg6 m ρ c)

theorem W5_main_arg7 (c : Dev nD) : W5 m ρ c (Proc.devRef .tc main_arg7) = (m ((c : Thread nD τ).loc main_arg7)) :=
  (show StableHlo.after hostOps1 (W4 m ρ c) (Proc.devRef .tc main_arg7) = W4 m ρ c (Proc.devRef .tc main_arg7) by host_keeps hostOps1).trans (W4_main_arg7 m ρ c)

/-! ## The second dense stage's exit: the first layer's activations -/

theorem W6_h1 (c : Dev nD) : W6 m ρ c (Proc.devRef .tc main_v47) = (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) :=
  (W6_arr m ρ c 2).trans ((Stage1.final (V5 m ρ) c).trans (congrArg₂ biasRelu (W5_agg1 m ρ c) (W5_bias1 m ρ c)))

theorem W6_sources (c : Dev nD) : W6 m ρ c (Proc.devRef .tc main_v3) = (sources (m ((c : Thread nD τ).loc main_arg1))) :=
  (W6_of_ne m ρ c main_v3 (by decide)).trans (W5_sources m ρ c)

theorem W6_targets (c : Dev nD) : W6 m ρ c (Proc.devRef .tc main_v6) = (targets (m ((c : Thread nD τ).loc main_arg1))) :=
  (W6_of_ne m ρ c main_v6 (by decide)).trans (W5_targets m ρ c)

theorem W6_coefficients (c : Dev nD) : W6 m ρ c (Proc.devRef .tc main_v31) = (coefficients (sources (m ((c : Thread nD τ).loc main_arg1))) (targets (m ((c : Thread nD τ).loc main_arg1)))) :=
  (W6_of_ne m ρ c main_v31 (by decide)).trans (W5_coefficients m ρ c)

theorem W6_main_arg4 (c : Dev nD) : W6 m ρ c (Proc.devRef .tc main_arg4) = (m ((c : Thread nD τ).loc main_arg4)) :=
  (W6_of_ne m ρ c main_arg4 (by decide)).trans (W5_main_arg4 m ρ c)

theorem W6_main_arg5 (c : Dev nD) : W6 m ρ c (Proc.devRef .tc main_arg5) = (m ((c : Thread nD τ).loc main_arg5)) :=
  (W6_of_ne m ρ c main_arg5 (by decide)).trans (W5_main_arg5 m ρ c)

theorem W6_main_arg6 (c : Dev nD) : W6 m ρ c (Proc.devRef .tc main_arg6) = (m ((c : Thread nD τ).loc main_arg6)) :=
  (W6_of_ne m ρ c main_arg6 (by decide)).trans (W5_main_arg6 m ρ c)

theorem W6_main_arg7 (c : Dev nD) : W6 m ρ c (Proc.devRef .tc main_arg7) = (m ((c : Thread nD τ).loc main_arg7)) :=
  (W6_of_ne m ρ c main_arg7 (by decide)).trans (W5_main_arg7 m ρ c)

/-! ## The third dense stage's exit -/

theorem W7_t2 (c : Dev nD) : W7 m ρ c (Proc.devRef .tc main_v48) = (matProd (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) (m ((c : Thread nD τ).loc main_arg4))) :=
  (W7_arr m ρ c 2).trans ((Stage2.final (V6 m ρ) c).trans (congrArg₂ matProd (W6_h1 m ρ c) (W6_main_arg4 m ρ c)))

theorem W7_sources (c : Dev nD) : W7 m ρ c (Proc.devRef .tc main_v3) = (sources (m ((c : Thread nD τ).loc main_arg1))) :=
  (W7_of_ne m ρ c main_v3 (by decide)).trans (W6_sources m ρ c)

theorem W7_targets (c : Dev nD) : W7 m ρ c (Proc.devRef .tc main_v6) = (targets (m ((c : Thread nD τ).loc main_arg1))) :=
  (W7_of_ne m ρ c main_v6 (by decide)).trans (W6_targets m ρ c)

theorem W7_coefficients (c : Dev nD) : W7 m ρ c (Proc.devRef .tc main_v31) = (coefficients (sources (m ((c : Thread nD τ).loc main_arg1))) (targets (m ((c : Thread nD τ).loc main_arg1)))) :=
  (W7_of_ne m ρ c main_v31 (by decide)).trans (W6_coefficients m ρ c)

theorem W7_main_arg5 (c : Dev nD) : W7 m ρ c (Proc.devRef .tc main_arg5) = (m ((c : Thread nD τ).loc main_arg5)) :=
  (W7_of_ne m ρ c main_arg5 (by decide)).trans (W6_main_arg5 m ρ c)

theorem W7_main_arg6 (c : Dev nD) : W7 m ρ c (Proc.devRef .tc main_arg6) = (m ((c : Thread nD τ).loc main_arg6)) :=
  (W7_of_ne m ρ c main_arg6 (by decide)).trans (W6_main_arg6 m ρ c)

theorem W7_main_arg7 (c : Dev nD) : W7 m ρ c (Proc.devRef .tc main_arg7) = (m ((c : Thread nD τ).loc main_arg7)) :=
  (W7_of_ne m ρ c main_arg7 (by decide)).trans (W6_main_arg7 m ρ c)

/-! ## The second aggregation and the second bias row -/

set_option maxHeartbeats 4000000 in
theorem W8_agg2 (c : Dev nD) : W8 m ρ c (Proc.devRef .tc main_v61) = (aggregate (matProd (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) (m ((c : Thread nD τ).loc main_arg4))) (sources (m ((c : Thread nD τ).loc main_arg1))) (targets (m ((c : Thread nD τ).loc main_arg1))) (coefficients (sources (m ((c : Thread nD τ).loc main_arg1))) (targets (m ((c : Thread nD τ).loc main_arg1))))) := by
  have h0 := W7_t2 m ρ c
  have h1 := W7_sources m ρ c
  have h2 := W7_targets m ρ c
  have h3 := W7_coefficients m ρ c
  show StableHlo.after hostOps3 (W7 m ρ c) (Proc.devRef .tc main_v61) = _
  generalize W7 m ρ c = V at h0 h1 h2 h3 ⊢
  after_results_simp
  simp only [h0, h1, h2, h3]
  rfl

set_option maxHeartbeats 4000000 in
theorem W8_bias2 (c : Dev nD) : W8 m ρ c (Proc.devRef .tc main_v62) = (shapeCast S1x64 (m ((c : Thread nD τ).loc main_arg5)) shapeCasts_S64_S1x64) := by
  have h0 := W7_main_arg5 m ρ c
  show StableHlo.after hostOps3 (W7 m ρ c) (Proc.devRef .tc main_v62) = _
  generalize W7 m ρ c = V at h0 ⊢
  after_results_simp
  simp only [h0]
  rfl

theorem W8_main_arg6 (c : Dev nD) : W8 m ρ c (Proc.devRef .tc main_arg6) = (m ((c : Thread nD τ).loc main_arg6)) :=
  (show StableHlo.after hostOps3 (W7 m ρ c) (Proc.devRef .tc main_arg6) = W7 m ρ c (Proc.devRef .tc main_arg6) by host_keeps hostOps3).trans (W7_main_arg6 m ρ c)

theorem W8_main_arg7 (c : Dev nD) : W8 m ρ c (Proc.devRef .tc main_arg7) = (m ((c : Thread nD τ).loc main_arg7)) :=
  (show StableHlo.after hostOps3 (W7 m ρ c) (Proc.devRef .tc main_arg7) = W7 m ρ c (Proc.devRef .tc main_arg7) by host_keeps hostOps3).trans (W7_main_arg7 m ρ c)

/-! ## The fourth dense stage's exit: the second layer's activations -/

theorem W9_h2 (c : Dev nD) : W9 m ρ c (Proc.devRef .tc main_v63) = (biasRelu (aggregate (matProd (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) (m ((c : Thread nD τ).loc main_arg4))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg5)) shapeCasts_S64_S1x64)) :=
  (W9_arr m ρ c 2).trans ((Stage3.final (V8 m ρ) c).trans (congrArg₂ biasRelu (W8_agg2 m ρ c) (W8_bias2 m ρ c)))

theorem W9_main_arg6 (c : Dev nD) : W9 m ρ c (Proc.devRef .tc main_arg6) = (m ((c : Thread nD τ).loc main_arg6)) :=
  (W9_of_ne m ρ c main_arg6 (by decide)).trans (W8_main_arg6 m ρ c)

theorem W9_main_arg7 (c : Dev nD) : W9 m ρ c (Proc.devRef .tc main_arg7) = (m ((c : Thread nD τ).loc main_arg7)) :=
  (W9_of_ne m ρ c main_arg7 (by decide)).trans (W8_main_arg7 m ρ c)

/-! ## The head's bias in its two-axis layout -/

set_option maxHeartbeats 4000000 in
theorem W10_bias3 (c : Dev nD) : W10 m ρ c (Proc.devRef .tc main_v64) = (shapeCast S1x1 (m ((c : Thread nD τ).loc main_arg7)) shapeCasts_S1_S1x1) := by
  have h0 := W9_main_arg7 m ρ c
  show StableHlo.after hostOps4 (W9 m ρ c) (Proc.devRef .tc main_v64) = _
  generalize W9 m ρ c = V at h0 ⊢
  after_results_simp
  simp only [h0]
  rfl

theorem W10_h2 (c : Dev nD) : W10 m ρ c (Proc.devRef .tc main_v63) = (biasRelu (aggregate (matProd (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) (m ((c : Thread nD τ).loc main_arg4))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg5)) shapeCasts_S64_S1x64)) :=
  (show StableHlo.after hostOps4 (W9 m ρ c) (Proc.devRef .tc main_v63) = W9 m ρ c (Proc.devRef .tc main_v63) by host_keeps hostOps4).trans (W9_h2 m ρ c)

theorem W10_main_arg6 (c : Dev nD) : W10 m ρ c (Proc.devRef .tc main_arg6) = (m ((c : Thread nD τ).loc main_arg6)) :=
  (show StableHlo.after hostOps4 (W9 m ρ c) (Proc.devRef .tc main_arg6) = W9 m ρ c (Proc.devRef .tc main_arg6) by host_keeps hostOps4).trans (W9_main_arg6 m ρ c)

/-! ## The result -/

/-- What the kernel program leaves in its result array: the head applied to the second layer's activations. -/
theorem W11_out (c : Dev nD) : W11 m ρ c (Proc.devRef .tc main_v65) = (matProdBias (biasRelu (aggregate (matProd (biasRelu (aggregate (matProd (m ((c : Thread nD τ).loc main_arg0)) (m ((c : Thread nD τ).loc main_arg2))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg3)) shapeCasts_S64_S1x64)) (m ((c : Thread nD τ).loc main_arg4))) (sources (m ((c : Thread nD τ).loc main_arg1))) (targets (m ((c : Thread nD τ).loc main_arg1))) (coefficients (sources (m ((c : Thread nD τ).loc main_arg1))) (targets (m ((c : Thread nD τ).loc main_arg1))))) (shapeCast S1x64 (m ((c : Thread nD τ).loc main_arg5)) shapeCasts_S64_S1x64)) (m ((c : Thread nD τ).loc main_arg6)) (shapeCast S1x1 (m ((c : Thread nD τ).loc main_arg7)) shapeCasts_S1_S1x1)) :=
  (W11_arr m ρ c 3).trans ((Stage4.final (V10 m ρ) c).trans
    (congr (congrArg₂ matProdBias (W10_h2 m ρ c) (W10_main_arg6 m ρ c)) (W10_bias3 m ρ c)))

end Cert.KernelIdeal.Host

end
-- ==== Proof.RefRun.lean ====
/-
  The reference program's run, read back. The reference is a straight line of 93 host operations: the first 43 turn
  the edge list into the two endpoint arrays (each edge list row followed by one self loop per node) and into one
  coefficient per edge (the product of the inverse square roots of its endpoints' degrees); the remaining 50 are the
  two graph-convolution layers and the linear head. Every weakly fair execution of the program terminates without a
  fault, each buffer ending at what the line of operations, folded over the launch contents, leaves there; no
  operation writes an argument. The fold splits at the 43rd operation: what the second part leaves is a function of
  the contents the first part leaves.
-/
import proofs.«152510_j77275051590185_1_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The operations that prepare the graph: endpoints with self loops, degrees, one coefficient per edge. -/
abbrev opsGraph : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- The two layers and the head. -/
abbrev opsLayers : List (HloOp τ sig (Elt F)) :=
  [ binary main_arg0 main_arg2 main_v32 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x64 ![0, 1] bcast_S3300000x1_S3300000x64_0_1 : (⟨S3300000x1, .f32⟩ : BufTy).Contents (Elt F) → (⟨S3300000x64, .f32⟩ : BufTy).Contents (Elt F)),
    binary main_v39 main_v41 main_v42 (mulf : (⟨S3300000x64, .f32⟩ : BufTy).Contents (Elt F) → (⟨S3300000x64, .f32⟩ : BufTy).Contents (Elt F) → (⟨S3300000x64, .f32⟩ : BufTy).Contents (Elt F)),
    nullary main_cst_9 (constant S_ .f32 0x00000000#32),
    unary main_cst_9 main_v43 (broadcastInDim S100000x64 ![] bcast_S_S100000x64 : (⟨S_, .f32⟩ : BufTy).Contents (Elt F) → (⟨S100000x64, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg3 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v45 main_v47 main_v48 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v48) (TRef.of (T := ⟨S100000x64, .f32⟩) main_call1_v0) (TRef.of (T := ⟨S100000x64, .f32⟩) main_v49) maximumf,
    binary main_v49 main_arg4 main_v50 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x64 ![0, 1] bcast_S3300000x1_S3300000x64_0_1 : (⟨S3300000x1, .f32⟩ : BufTy).Contents (Elt F) → (⟨S3300000x64, .f32⟩ : BufTy).Contents (Elt F)),
    binary main_v57 main_v59 main_v60 (mulf : (⟨S3300000x64, .f32⟩ : BufTy).Contents (Elt F) → (⟨S3300000x64, .f32⟩ : BufTy).Contents (Elt F) → (⟨S3300000x64, .f32⟩ : BufTy).Contents (Elt F)),
    nullary main_cst_12 (constant S_ .f32 0x00000000#32),
    unary main_cst_12 main_v61 (broadcastInDim S100000x64 ![] bcast_S_S100000x64 : (⟨S_, .f32⟩ : BufTy).Contents (Elt F) → (⟨S100000x64, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)),
    unary main_arg5 main_v64 (broadcastInDim S1x64 ![1] bcast_S64_S1x64_1 : (⟨S64, .f32⟩ : BufTy).Contents (Elt F) → (⟨S1x64, .f32⟩ : BufTy).Contents (Elt F)),
    unary main_v64 main_v65 (broadcastInDim S100000x64 ![0, 1] bcast_S1x64_S100000x64_0_1 : (⟨S1x64, .f32⟩ : BufTy).Contents (Elt F) → (⟨S100000x64, .f32⟩ : BufTy).Contents (Elt F)),
    binary main_v63 main_v65 main_v66 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x64, .f32⟩) main_call2_v0) (broadcastInDim S100000x64 ![] bcast_S_S100000x64),
    TRef.binary (TRef.of (T := ⟨S100000x64, .f32⟩) main_v66) (TRef.of (T := ⟨S100000x64, .f32⟩) main_call2_v0) (TRef.of (T := ⟨S100000x64, .f32⟩) main_v67) maximumf,
    binary main_v67 main_arg6 main_v68 ((fun l r => Host.dotGeneral dot_S100000x64_S64x1_S100000x1_1_0_0_1_n_n none l r) : (⟨S100000x64, .f32⟩ : BufTy).Contents (Elt F) → (⟨S64x1, .f32⟩ : BufTy).Contents (Elt F) → (⟨S100000x1, .f32⟩ : BufTy).Contents (Elt F)),
    unary main_arg7 main_v69 (broadcastInDim S1x1 ![1] bcast_S1_S1x1_1 : (⟨S1, .f32⟩ : BufTy).Contents (Elt F) → (⟨S1x1, .f32⟩ : BufTy).Contents (Elt F)),
    unary main_v69 main_v70 (broadcastInDim S100000x1 ![0, 1] bcast_S1x1_S100000x1_0_1 : (⟨S1x1, .f32⟩ : BufTy).Contents (Elt F) → (⟨S100000x1, .f32⟩ : BufTy).Contents (Elt F)),
    binary main_v68 main_v70 main_v71 (addf : (⟨S100000x1, .f32⟩ : BufTy).Contents (Elt F) → (⟨S100000x1, .f32⟩ : BufTy).Contents (Elt F) → (⟨S100000x1, .f32⟩ : BufTy).Contents (Elt F)) ]

/-- The program's operations, in order (a called function's operations stand in its call's place). -/
abbrev ops : List (HloOp τ sig (Elt F)) := opsGraph ++ opsLayers

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem opsGraph_sub : (opsGraph : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
set_option maxRecDepth 8192 in
theorem opsLayers_sub : (opsLayers : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op h => (List.mem_append.mp h).elim
    (List.forall_iff_forall_mem.mp opsGraph_sub op) (List.forall_iff_forall_mem.mp opsLayers_sub op)

/-- Running the whole line is running the graph preparation, then the layers. -/
theorem after_ops (V : Valuation τ sig (Elt F)) : after ops V = after opsLayers (after opsGraph V) := by
  show after (opsGraph ++ opsLayers) V = _
  generalize (opsGraph : List (HloOp τ sig (Elt F))) = l₁
  induction l₁ generalizing V with
  | nil => rfl
  | cons op l ih => simp only [List.cons_append, after_cons, ih]

/-- What the graph preparation leaves, from the launch contents. -/
abbrev graphDone (m : (ℓ : Loc nD τ sig) → Buf (Elt F) ℓ) (c : Dev nD) : Valuation τ sig (Elt F) :=
  after opsGraph (launchContents m c)

set_option maxRecDepth 8192 in
set_option maxHeartbeats 40000000 in
/-- Every weakly fair execution terminates with the result at what the layers leave from `graphDone`, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v71) = after opsLayers (graphDone m c) (Proc.devRef .tc main_v71)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v71).trans (congrFun (after_ops (launchContents m c)) _),
      (h c main_arg0).trans (by rw [after_ops]; after_results_simp <;> rfl),
      (h c main_arg1).trans (by rw [after_ops]; after_results_simp <;> rfl),
      (h c main_arg2).trans (by rw [after_ops]; after_results_simp <;> rfl),
      (h c main_arg3).trans (by rw [after_ops]; after_results_simp <;> rfl),
      (h c main_arg4).trans (by rw [after_ops]; after_results_simp <;> rfl),
      (h c main_arg5).trans (by rw [after_ops]; after_results_simp <;> rfl),
      (h c main_arg6).trans (by rw [after_ops]; after_results_simp <;> rfl),
      (h c main_arg7).trans (by rw [after_ops]; after_results_simp <;> rfl)⟩)
    (run_seq scopedRefs_eq scopedSems_eq defs main (fun _ => ops) main_eq (fun _ => ops_sub) m ρ)

end Cert.ReferenceIdeal.Line

end
-- ==== Proof.Network.lean ====
/-
  The network as the host computes it: a matrix product, its aggregation along the edges, a bias broadcast to every
  row and added, and the positive part taken as a maximum with a broadcast zero — twice — and then a last product
  with a one-entry bias broadcast to every entry and added. The aggregation, the endpoint arrays and the coefficients are the
  graph functions; the products are the host's dot_general.
-/
import proofs.«152510_j77275051590185_1_alg».proof.Proof.Graph

noncomputable section

namespace Cert.ReferenceIdeal.Line

open Cert.ReferenceIdeal Cert.Graph Idealize.ShloMosaic
open Cert.ReferenceIdeal.Facts₀

variable {F : FTy → Type} [FloatOps F]

/-- One layer after its product: aggregate, add the bias row to every row, take the positive part. -/
def layer (t : Feat F) (b : (⟨S64, .f32⟩ : BufTy).Contents (Elt F)) (s d : Ends F) (n : PerEdge F) : Feat F :=
  maximumf
    (addf (aggregate t s d n)
      (broadcastInDim S100000x64 ![0, 1] bcast_S1x64_S100000x64_0_1 (broadcastInDim S1x64 ![1] bcast_S64_S1x64_1 b)))
    (broadcastInDim S100000x64 ![] bcast_S_S100000x64 (constant (F := F) S_ .f32 0x00000000#32))

/-- The whole network on the host: two layers and the head. -/
def network (x0 : (⟨S100000x128, .f32⟩ : BufTy).Contents (Elt F)) (e : EdgeList F)
    (w1 : (⟨S128x64, .f32⟩ : BufTy).Contents (Elt F)) (b1 : (⟨S64, .f32⟩ : BufTy).Contents (Elt F))
    (w2 : (⟨S64x64, .f32⟩ : BufTy).Contents (Elt F)) (b2 : (⟨S64, .f32⟩ : BufTy).Contents (Elt F))
    (w3 : (⟨S64x1, .f32⟩ : BufTy).Contents (Elt F)) (b3 : (⟨S1, .f32⟩ : BufTy).Contents (Elt F)) :
    (⟨S100000x1, .f32⟩ : BufTy).Contents (Elt F) :=
  addf
    (Host.dotGeneral (F := F) dot_S100000x64_S64x1_S100000x1_1_0_0_1_n_n none
      (layer
        (Host.dotGeneral (F := F) dot_S100000x64_S64x64_S100000x64_1_0_0_1_n_n none
          (layer (Host.dotGeneral (F := F) dot_S100000x128_S128x64_S100000x64_1_0_0_1_n_n none x0 w1) b1
            (sources e) (targets e) (coefficients (sources e) (targets e)))
          w2)
        b2 (sources e) (targets e) (coefficients (sources e) (targets e)))
      w3)
    (broadcastInDim S100000x1 ![0, 1] bcast_S1x1_S100000x1_0_1 (broadcastInDim S1x1 ![1] bcast_S1_S1x1_1 b3))

end Cert.ReferenceIdeal.Line

end
-- ==== Proof.RefValue.lean ====
/-
  The reference program's result, read. The graph preparation leaves the two endpoint arrays and the edge
  coefficients, the graph functions of those names applied to the edge list as launched, and writes no argument. The
  layers then compute, from those arrays and the arguments: a matrix product, its aggregation, a bias row added and
  the positive part taken; the same again with the second layer's weights and biases; and a last product with one
  bias added. The result buffer ends at that one term (`network`), in which the aggregation and the coefficients
  stay folded as the graph functions.
-/
import proofs.«152510_j77275051590185_1_alg».proof.Proof.RefRun
import proofs.«152510_j77275051590185_1_alg».proof.Proof.Graph
import proofs.«152510_j77275051590185_1_alg».proof.Proof.Network

set_option maxRecDepth 16384

noncomputable section

namespace Cert.ReferenceIdeal.Line

open Cert.ReferenceIdeal Cert.Graph Idealize.ShloMosaic Idealize.ShloMosaic.TcCoe Idealize.SL.Sem Idealize.ShloMosaic.StableHlo
open Cert.ReferenceIdeal.Facts₀

variable {F : FTy → Type} [FloatOps F]

variable (m : (ℓ : Loc nD τ sig) → Buf (Elt F) ℓ)

/-! ## What the graph preparation leaves

The first seven operations leave the endpoint arrays; the remaining thirty-six leave the coefficients from them. -/

/-- Slices, re-layings and joins: the endpoint arrays. -/
abbrev opsEnds : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- Degrees, their inverse square roots, one coefficient per edge. -/
abbrev opsCoef : List (HloOp τ sig (Elt F)) :=
  [ nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

theorem opsGraph_split : (opsGraph : List (HloOp τ sig (Elt F))) = opsEnds ++ opsCoef := rfl

/-- Running a line and then another is running the two joined. -/
theorem after_join (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- What the first seven operations leave. -/
abbrev endsDone (m : (ℓ : Loc nD τ sig) → Buf (Elt F) ℓ) (c : Dev nD) : Valuation τ sig (Elt F) :=
  after opsEnds (launchContents m c)

theorem graphDone_eq (m : (ℓ : Loc nD τ sig) → Buf (Elt F) ℓ) (c : Dev nD) : graphDone m c = after opsCoef (endsDone m c) := by
  show after opsGraph (launchContents m c) = _
  rw [opsGraph_split, after_join]

theorem ends_sources (c : Dev nD) : (endsDone m c (Proc.devRef .tc main_v3) : Ends F) = (sources (m ((c.tc : Thread nD τ).loc main_arg1))) := by
  show after opsEnds (launchContents m c) (Proc.devRef .tc main_v3) = _
  after_results <;> rfl

theorem ends_targets (c : Dev nD) : (endsDone m c (Proc.devRef .tc main_v6) : Ends F) = (targets (m ((c.tc : Thread nD τ).loc main_arg1))) := by
  show after opsEnds (launchContents m c) (Proc.devRef .tc main_v6) = _
  after_results <;> rfl

theorem ends_main_arg0 (c : Dev nD) : endsDone m c (Proc.devRef .tc main_arg0) = (m ((c.tc : Thread nD τ).loc main_arg0)) := by
  show after opsEnds (launchContents m c) (Proc.devRef .tc main_arg0) = _
  after_results_simp <;> rfl
theorem ends_main_arg2 (c : Dev nD) : endsDone m c (Proc.devRef .tc main_arg2) = (m ((c.tc : Thread nD τ).loc main_arg2)) := by
  show after opsEnds (launchContents m c) (Proc.devRef .tc main_arg2) = _
  after_results_simp <;> rfl
theorem ends_main_arg3 (c : Dev nD) : endsDone m c (Proc.devRef .tc main_arg3) = (m ((c.tc : Thread nD τ).loc main_arg3)) := by
  show after opsEnds (launchContents m c) (Proc.devRef .tc main_arg3) = _
  after_results_simp <;> rfl
theorem ends_main_arg4 (c : Dev nD) : endsDone m c (Proc.devRef .tc main_arg4) = (m ((c.tc : Thread nD τ).loc main_arg4)) := by
  show after opsEnds (launchContents m c) (Proc.devRef .tc main_arg4) = _
  after_results_simp <;> rfl
theorem ends_main_arg5 (c : Dev nD) : endsDone m c (Proc.devRef .tc main_arg5) = (m ((c.tc : Thread nD τ).loc main_arg5)) := by
  show after opsEnds (launchContents m c) (Proc.devRef .tc main_arg5) = _
  after_results_simp <;> rfl
theorem ends_main_arg6 (c : Dev nD) : endsDone m c (Proc.devRef .tc main_arg6) = (m ((c.tc : Thread nD τ).loc main_arg6)) := by
  show after opsEnds (launchContents m c) (Proc.devRef .tc main_arg6) = _
  after_results_simp <;> rfl
theorem ends_main_arg7 (c : Dev nD) : endsDone m c (Proc.devRef .tc main_arg7) = (m ((c.tc : Thread nD τ).loc main_arg7)) := by
  show after opsEnds (launchContents m c) (Proc.devRef .tc main_arg7) = _
  after_results_simp <;> rfl

set_option maxHeartbeats 4000000 in
theorem graph_sources (c : Dev nD) : (graphDone m c (Proc.devRef .tc main_v3) : Ends F) = (sources (m ((c.tc : Thread nD τ).loc main_arg1))) := by
  have hs := ends_sources m c
  rw [graphDone_eq]
  generalize endsDone m c = V at hs ⊢
  after_results_simp
  exact hs

set_option maxHeartbeats 4000000 in
theorem graph_targets (c : Dev nD) : (graphDone m c (Proc.devRef .tc main_v6) : Ends F) = (targets (m ((c.tc : Thread nD τ).loc main_arg1))) := by
  have ht := ends_targets m c
  rw [graphDone_eq]
  generalize endsDone m c = V at ht ⊢
  after_results_simp
  exact ht

set_option maxHeartbeats 4000000 in
theorem graph_coefficients (c : Dev nD) : (graphDone m c (Proc.devRef .tc main_v31) : PerEdge F) = (coefficients (sources (m ((c.tc : Thread nD τ).loc main_arg1))) (targets (m ((c.tc : Thread nD τ).loc main_arg1)))) := by
  have hs := ends_sources m c
  have ht := ends_targets m c
  rw [graphDone_eq]
  generalize endsDone m c = V at hs ht ⊢
  after_results_simp
  simp only [hs, ht]
  rfl

set_option maxHeartbeats 4000000 in
theorem graph_main_arg0 (c : Dev nD) : graphDone m c (Proc.devRef .tc main_arg0) = (m ((c.tc : Thread nD τ).loc main_arg0)) := by
  have h := ends_main_arg0 m c
  rw [graphDone_eq]
  generalize endsDone m c = V at h ⊢
  after_results_simp
  exact h
set_option maxHeartbeats 4000000 in
theorem graph_main_arg2 (c : Dev nD) : graphDone m c (Proc.devRef .tc main_arg2) = (m ((c.tc : Thread nD τ).loc main_arg2)) := by
  have h := ends_main_arg2 m c
  rw [graphDone_eq]
  generalize endsDone m c = V at h ⊢
  after_results_simp
  exact h
set_option maxHeartbeats 4000000 in
theorem graph_main_arg3 (c : Dev nD) : graphDone m c (Proc.devRef .tc main_arg3) = (m ((c.tc : Thread nD τ).loc main_arg3)) := by
  have h := ends_main_arg3 m c
  rw [graphDone_eq]
  generalize endsDone m c = V at h ⊢
  after_results_simp
  exact h
set_option maxHeartbeats 4000000 in
theorem graph_main_arg4 (c : Dev nD) : graphDone m c (Proc.devRef .tc main_arg4) = (m ((c.tc : Thread nD τ).loc main_arg4)) := by
  have h := ends_main_arg4 m c
  rw [graphDone_eq]
  generalize endsDone m c = V at h ⊢
  after_results_simp
  exact h
set_option maxHeartbeats 4000000 in
theorem graph_main_arg5 (c : Dev nD) : graphDone m c (Proc.devRef .tc main_arg5) = (m ((c.tc : Thread nD τ).loc main_arg5)) := by
  have h := ends_main_arg5 m c
  rw [graphDone_eq]
  generalize endsDone m c = V at h ⊢
  after_results_simp
  exact h
set_option maxHeartbeats 4000000 in
theorem graph_main_arg6 (c : Dev nD) : graphDone m c (Proc.devRef .tc main_arg6) = (m ((c.tc : Thread nD τ).loc main_arg6)) := by
  have h := ends_main_arg6 m c
  rw [graphDone_eq]
  generalize endsDone m c = V at h ⊢
  after_results_simp
  exact h
set_option maxHeartbeats 4000000 in
theorem graph_main_arg7 (c : Dev nD) : graphDone m c (Proc.devRef .tc main_arg7) = (m ((c.tc : Thread nD τ).loc main_arg7)) := by
  have h := ends_main_arg7 m c
  rw [graphDone_eq]
  generalize endsDone m c = V at h ⊢
  after_results_simp
  exact h

/-! ## The layers -/

set_option maxHeartbeats 40000000 in
/-- The result buffer after the layers, from what the graph preparation leaves. -/
theorem layers_value (c : Dev nD) : after opsLayers (graphDone m c) (Proc.devRef .tc main_v71)
    = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have hs := graph_sources m c
  have ht := graph_targets m c
  have hn := graph_coefficients m c
  have h0 := graph_main_arg0 m c
  have h2 := graph_main_arg2 m c
  have h3 := graph_main_arg3 m c
  have h4 := graph_main_arg4 m c
  have h5 := graph_main_arg5 m c
  have h6 := graph_main_arg6 m c
  have h7 := graph_main_arg7 m c
  generalize graphDone m c = V at hs ht hn h0 h2 h3 h4 h5 h6 h7 ⊢
  after_results_simp
  simp only [hs, ht, hn, h0, h2, h3, h4, h5, h6, h7]
  rfl

end Cert.ReferenceIdeal.Line

end
-- ==== Proof.Bridge.lean ====
/-
  The host's spelling of the dense stages is the dense stages. Over the extended reals the host's dot_general of
  an M × K by a K × N array is, entry by entry, the sum over k of left (r, k) · right (k, c): the matrix product. A bias
  vector broadcast first to one row and then to every row, added, and the maximum with a broadcast zero taken, is the
  bias row (the same vector re-laid as a 1 × N array) added to every row followed by the positive part. A product plus a
  one-entry bias broadcast to every entry is the product with that bias added. So the reference's network is the chain
  of dense-stage functions and aggregations that the kernel program's boundaries name.
-/
import proofs.«152510_j77275051590185_1_alg».proof.Proof.Network
import proofs.«152510_j77275051590185_1_alg».proof.Proof.Spec
import Idealize.ShloMosaic.Lib.Pipeline.Value
import Idealize.ShloMosaic.Lib.ValueIdx
import Idealize.ShloMosaic.Lib.ValueLayout

set_option maxRecDepth 16384

noncomputable section

open scoped BigOperators

namespace Cert.Bridge

open Cert.ReferenceIdeal Cert.ReferenceIdeal.Line Cert.Graph Cert.Dense
open Idealize.ShloMosaic Idealize.ShloMosaic.ValueIdx
open Cert.ReferenceIdeal.Facts₀

theorem plain1 : PlainDot dot_S100000x128_S128x64_S100000x64_1_0_0_1_n_n where
  rank := rfl
  size := rfl
  l0 := fun j q => by
    unfold DotDims.lhsIdx
    rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
    rfl
  l1 := fun j q => dot_S100000x128_S128x64_S100000x64_1_0_0_1_n_n.lhsIdx_val_of_single rfl j q
  r0 := fun j q => dot_S100000x128_S128x64_S100000x64_1_0_0_1_n_n.rhsIdx_val_of_single rfl j q
  r1 := fun j q => by
    unfold DotDims.rhsIdx
    rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
    rfl

theorem plain2 : PlainDot dot_S100000x64_S64x64_S100000x64_1_0_0_1_n_n where
  rank := rfl
  size := rfl
  l0 := fun j q => by
    unfold DotDims.lhsIdx
    rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
    rfl
  l1 := fun j q => dot_S100000x64_S64x64_S100000x64_1_0_0_1_n_n.lhsIdx_val_of_single rfl j q
  r0 := fun j q => dot_S100000x64_S64x64_S100000x64_1_0_0_1_n_n.rhsIdx_val_of_single rfl j q
  r1 := fun j q => by
    unfold DotDims.rhsIdx
    rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
    rfl

theorem plain3 : PlainDot dot_S100000x64_S64x1_S100000x1_1_0_0_1_n_n where
  rank := rfl
  size := rfl
  l0 := fun j q => by
    unfold DotDims.lhsIdx
    rw [dif_neg (show ¬(0 : Fin S100000x64.rank) ∈ dot_S100000x64_S64x1_S100000x1_1_0_0_1_n_n.lhsBatch by decide), dif_pos (show (0 : Fin S100000x64.rank) ∈ dot_S100000x64_S64x1_S100000x1_1_0_0_1_n_n.lhsNonContracting by decide)]
    rfl
  l1 := fun j q => dot_S100000x64_S64x1_S100000x1_1_0_0_1_n_n.lhsIdx_val_of_single rfl j q
  r0 := fun j q => dot_S100000x64_S64x1_S100000x1_1_0_0_1_n_n.rhsIdx_val_of_single rfl j q
  r1 := fun j q => by
    unfold DotDims.rhsIdx
    rw [dif_neg (show ¬(1 : Fin S64x1.rank) ∈ dot_S100000x64_S64x1_S100000x1_1_0_0_1_n_n.rhsBatch by decide), dif_pos (show (1 : Fin S64x1.rank) ∈ dot_S100000x64_S64x1_S100000x1_1_0_0_1_n_n.rhsNonContracting by decide)]
    rfl

/-- The first layer's product on the host is the matrix product. -/
theorem product1 (x : FVec Ideal S100000x128 .f32) (w : FVec Ideal S128x64 .f32) :
    Host.dotGeneral (F := Ideal) dot_S100000x128_S128x64_S100000x64_1_0_0_1_n_n none x w = matProd x w := by
  funext j
  rw [eq_ix2 j]
  exact dotGeneral_ix2_any plain1 none .single x w (j 0) (j 1)

/-- The second layer's product on the host is the matrix product. -/
theorem product2 (x : FVec Ideal S100000x64 .f32) (w : FVec Ideal S64x64 .f32) :
    Host.dotGeneral (F := Ideal) dot_S100000x64_S64x64_S100000x64_1_0_0_1_n_n none x w = matProd x w := by
  funext j
  rw [eq_ix2 j]
  exact dotGeneral_ix2_any plain2 none .single x w (j 0) (j 1)

/-- The head's product on the host is the matrix product. -/
theorem product3 (x : FVec Ideal S100000x64 .f32) (w : FVec Ideal S64x1 .f32) :
    Host.dotGeneral (F := Ideal) dot_S100000x64_S64x1_S100000x1_1_0_0_1_n_n none x w = matProd x w := by
  funext j
  rw [eq_ix2 j]
  exact dotGeneral_ix2_any plain3 none .single x w (j 0) (j 1)

/-- A bias vector broadcast to one row and then to every row reads, at (r, q), the vector at q. -/
theorem biasRows_apply (b : FVec Ideal S64 .f32) (r : Fin 100000) (q : Fin 64) :
    broadcastInDim S100000x64 ![0, 1] bcast_S1x64_S100000x64_0_1 (broadcastInDim S1x64 ![1] bcast_S64_S1x64_1 b) (ix2 r q) = b (ix1 q) := by
  refine (broadcastInDim_apply _ bcast_S1x64_S100000x64_0_1 _ (ix2 r q) (ix2 0 q) (fun a => ?_)).trans
    (broadcastInDim_apply _ bcast_S64_S1x64_1 b (ix2 0 q) (ix1 q) (fun a => ?_))
  · match a with
    | ⟨0, _⟩ => show 0 = if (1 : Nat) = 1 then 0 else r.val; rw [if_pos rfl]
    | ⟨1, _⟩ => show q.val = if (64 : Nat) = 1 then 0 else q.val; rw [if_neg (by decide)]
  · match a with
    | ⟨0, _⟩ => show q.val = if (64 : Nat) = 1 then 0 else q.val; rw [if_neg (by decide)]

/-- One layer on the host, after its product, is the aggregation followed by the bias-and-positive-part stage. -/
theorem layer_eq (t : Feat Ideal) (b : FVec Ideal S64 .f32) (s d : Ends Ideal) (n : PerEdge Ideal)
    (h : S64.ShapeCasts S1x64) :
    layer t b s d n = biasRelu (aggregate t s d n) (shapeCast S1x64 b h) := by
  unfold layer
  generalize aggregate t s d n = a
  funext j
  obtain ⟨r, q, rfl⟩ : ∃ (r : Fin 100000) (q : Fin 64), j = ix2 r q := ⟨j 0, j 1, eq_ix2 j⟩
  refine (maximumf_apply _ _ (ix2 r q)).trans (congrArg₂ max ((addf_apply _ _ (ix2 r q)).trans (congrArg₂ (· + ·) rfl ?_)) ?_)
  · exact (biasRows_apply b r q).trans (shapeCast_a_1a_apply b h 0 q).symm
  · exact broadcastInDim_apply _ bcast_S_S100000x64 _ (ix2 r q) ix0 (fun a => a.elim0)

/-- The head on the host is the product with its one bias added. -/
theorem head_eq (x : FVec Ideal S100000x64 .f32) (w : FVec Ideal S64x1 .f32) (b : FVec Ideal S1 .f32)
    (h : S1.ShapeCasts S1x1) :
    addf (Host.dotGeneral (F := Ideal) dot_S100000x64_S64x1_S100000x1_1_0_0_1_n_n none x w)
        (broadcastInDim S100000x1 ![0, 1] bcast_S1x1_S100000x1_0_1 (broadcastInDim S1x1 ![1] bcast_S1_S1x1_1 b))
      = matProdBias x w (shapeCast S1x1 b h) := by
  rw [product3]
  funext j
  obtain ⟨r, q, rfl⟩ : ∃ (r : Fin 100000) (q : Fin 1), j = ix2 r q := ⟨j 0, j 1, eq_ix2 j⟩
  refine (addf_apply _ _ (ix2 r q)).trans (congrArg₂ (· + ·) rfl ?_)
  refine ((broadcastInDim_apply _ bcast_S1x1_S100000x1_0_1 _ (ix2 r q) (ix2 0 0) (fun a => ?_)).trans
    (broadcastInDim_apply _ bcast_S1_S1x1_1 b (ix2 0 0) (ix1 0) (fun a => ?_))).trans (shapeCast_a_1a_apply b h 0 0).symm
  · match a with
    | ⟨0, _⟩ => show 0 = if (1 : Nat) = 1 then 0 else r.val; rw [if_pos rfl]
    | ⟨1, _⟩ => show 0 = if (1 : Nat) = 1 then 0 else q.val; rw [if_pos rfl]
  · match a with
    | ⟨0, _⟩ => show 0 = if (1 : Nat) = 1 then 0 else 0; rw [if_pos rfl]

/-- The reference's network is the chain of dense stages and aggregations. -/
theorem network_eq (x0 : (⟨S100000x128, .f32⟩ : BufTy).Contents (Elt Ideal)) (e : EdgeList Ideal)
    (w1 : (⟨S128x64, .f32⟩ : BufTy).Contents (Elt Ideal)) (b1 : (⟨S64, .f32⟩ : BufTy).Contents (Elt Ideal))
    (w2 : (⟨S64x64, .f32⟩ : BufTy).Contents (Elt Ideal)) (b2 : (⟨S64, .f32⟩ : BufTy).Contents (Elt Ideal))
    (w3 : (⟨S64x1, .f32⟩ : BufTy).Contents (Elt Ideal)) (b3 : (⟨S1, .f32⟩ : BufTy).Contents (Elt Ideal))
    (h64 : S64.ShapeCasts S1x64) (h1 : S1.ShapeCasts S1x1) :
    network x0 e w1 b1 w2 b2 w3 b3
      = matProdBias
          (biasRelu (aggregate (matProd (biasRelu (aggregate (matProd x0 w1) (sources e) (targets e) (coefficients (sources e) (targets e)))
              (shapeCast S1x64 b1 h64)) w2) (sources e) (targets e) (coefficients (sources e) (targets e)))
            (shapeCast S1x64 b2 h64))
          w3 (shapeCast S1x1 b3 h1) := by
  unfold network
  rw [head_eq _ _ _ h1, layer_eq _ _ _ _ _ h64, product2, layer_eq _ _ _ _ _ h64, product1]

end Cert.Bridge

end
-- ==== Proof.lean ====
/-
  A two-layer graph convolution with a linear head, computed two ways, gives equal results over the extended reals.

  Both programs turn the edge list into endpoint arrays and edge coefficients with the same host operations, and both
  aggregate along the edges with the same host operations. They differ in the dense stages only. The reference
  computes each product with the host's dot_general, adds each bias by broadcasting it and takes the positive part by
  a maximum with a broadcast zero. The kernel program launches five kernels, each over ten blocks of 10000 rows: a
  product into a zero accumulator with both operands rounded to bf16 first, a bias row added with the positive part
  taken, a second product, a second bias row and positive part, and a last product with one bias added. Over the
  extended reals a rounding is the identity and both kinds of product are the sum over k of left (r, k) · right (k, c);
  a block of a row-tiled stage is the restriction of the stage's whole-array function, and the ten blocks tile the
  result. So after each dense stage the kernel program's array is the reference's, the shared host operations are
  applied to equal arrays, and the two results are one function of the arguments. The law that joins the two sides
  is the definition of the matrix product itself; no distributivity or cancellation is used, so the arguments'
  finiteness is never opened.

  The kernel programs' frames are their generated frame certificates; the reference's frame is its run with the result
  dropped; the idealization rewrote nothing, so its record is trivial.
-/
import proofs.«152510_j77275051590185_1_alg».proof.Defs
import proofs.«152510_j77275051590185_1_alg».proof.Proof.Gen.Kernel
import proofs.«152510_j77275051590185_1_alg».proof.Proof.Gen.Kernel.Skeleton
import proofs.«152510_j77275051590185_1_alg».proof.Proof.Gen.Kernel.Launch
import proofs.«152510_j77275051590185_1_alg».proof.Proof.Gen.Kernel.Points
import proofs.«152510_j77275051590185_1_alg».proof.Proof.Gen.Kernel.Frame
import proofs.«152510_j77275051590185_1_alg».proof.Proof.Gen.KernelIdeal
import proofs.«152510_j77275051590185_1_alg».proof.Proof.Gen.KernelIdeal.Skeleton
import proofs.«152510_j77275051590185_1_alg».proof.Proof.Gen.KernelIdeal.Launch
import proofs.«152510_j77275051590185_1_alg».proof.Proof.Gen.KernelIdeal.Points
import proofs.«152510_j77275051590185_1_alg».proof.Proof.Gen.KernelIdeal.Frame
import proofs.«152510_j77275051590185_1_alg».proof.Proof.Gen.ReferenceIdeal
import proofs.«152510_j77275051590185_1_alg».proof.Proof.Gen.Pre_finite_inputs
import proofs.«152510_j77275051590185_1_alg».proof.Proof.KernelRun
import proofs.«152510_j77275051590185_1_alg».proof.Proof.KernelLayers
import proofs.«152510_j77275051590185_1_alg».proof.Proof.RefValue
import proofs.«152510_j77275051590185_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.Line.run (F := Ideal) m ρ)

/-- The idealization rewrote no operation. -/
theorem preserves : Cert.preserves_Kernel_KernelIdeal := trivial

/-- Both programs end with the head applied to the second layer's activations: the kernel program by its boundaries,
    the reference by its line of operations read as the same chain of dense stages and aggregations. -/
theorem algebraic : Cert.algebraic_KernelIdeal_ReferenceIdeal := by
  intro m ρ m' ρ' _ hagree
  refine ⟨fun c => _, (θ_run Cert.KernelIdeal.defs _ _).mono
    (fun _ h c => ⟨(h c).1.trans (Cert.KernelIdeal.Host.W11_out m ρ c), (h c).2⟩)
    (Cert.KernelIdeal.Named.run_named (F := Ideal) m ρ), ?_⟩
  refine (θ_run Cert.ReferenceIdeal.defs _ _).mono (fun _ h c => ⟨(h c).1.trans ?_, (h c).2⟩)
    (Cert.ReferenceIdeal.Line.run (F := Ideal) m' ρ')
  obtain ⟨a0, a1, a2, a3, a4, a5, a6, a7⟩ := hagree c
  rw [Cert.ReferenceIdeal.Line.layers_value, a0, a1, a2, a3, a4, a5, a6, a7]
  exact Cert.Bridge.network_eq _ _ _ _ _ _ _ _ Cert.KernelIdeal.Gen.shapeCasts_S64_S1x64 Cert.KernelIdeal.Gen.shapeCasts_S1_S1x1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
